-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x160 : Shape := ⟨2, ![100000, 160]⟩
abbrev S2x1600000 : Shape := ⟨2, ![2, 1600000]⟩
abbrev S160x128 : Shape := ⟨2, ![160, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x160 : S_.BroadcastsInDim S100000x160 (![] : Fin 0 → Fin S100000x160.rank)
  reducesTo_S100000x160_S_d0_1 : S100000x160.ReducesTo [0, 1] S_
  h_S_ : 0 < S_.numel
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg22 : FVec F S128 .f32) (main_arg23 : FVec F S128x1 .f32) (main_arg24 : FVec F S1 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg22
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x1 .f32 := Host.absf main_arg23
  let main_cst_42 : FVec F S_ .f32 := constant S_ .f32 0x7F800000#32
  let main_v110 : FVec F S128x1 .f32 := broadcastInDim S128x1 ![] bcast_S_S128x1 main_cst_42
  let main_v111 : IVec S128x1 1 := cmpf .olt main_v109 main_v110
  let main_c_43 : IVec S_ 1 := constantI S_ 1 1#1
  let main_v112 : IVec S_ 1 := (fun x v => Host.reduce IntOp.andi x v reducesTo_S128x1_S_d0_1 h_S_) main_v111 main_c_43
  let main_v113 : IVec S_ 1 := andi main_v108 main_v112
  let main_v114 : FVec F S1 .f32 := Host.absf main_arg24
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  main_v118

def fn_part5 {F : FTy → Type} [FloatOps F] (main_arg19 : FVec F S128 .f32) (main_arg20 : FVec F S128 .f32) (main_arg21 : FVec F S128 .f32) (main_arg22 : FVec F S128 .f32) (main_arg23 : FVec F S128x1 .f32) (main_arg24 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg21
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg22 main_arg23 main_arg24 main_v98 main_v101 main_c_39

def fn_part4 {F : FTy → Type} [FloatOps F] (main_arg15 : FVec F S128 .f32) (main_arg16 : FVec F S128x128 .f32) (main_arg17 : FVec F S128x128 .f32) (main_arg18 : FVec F S128 .f32) (main_arg19 : FVec F S128 .f32) (main_arg20 : FVec F S128 .f32) (main_arg21 : FVec F S128 .f32) (main_arg22 : FVec F S128 .f32) (main_arg23 : FVec F S128x1 .f32) (main_arg24 : FVec F S1 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg16
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128x128 .f32 := Host.absf main_arg17
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_arg21 main_arg22 main_arg23 main_arg24 main_v83 main_v84 main_cst_32

def fn_part3 {F : FTy → Type} [FloatOps F] (main_arg12 : FVec F S128 .f32) (main_arg13 : FVec F S128 .f32) (main_arg14 : FVec F S128 .f32) (main_arg15 : FVec F S128 .f32) (main_arg16 : FVec F S128x128 .f32) (main_arg17 : FVec F S128x128 .f32) (main_arg18 : FVec F S128 .f32) (main_arg19 : FVec F S128 .f32) (main_arg20 : FVec F S128 .f32) (main_arg21 : FVec F S128 .f32) (main_arg22 : FVec F S128 .f32) (main_arg23 : FVec F S128x1 .f32) (main_arg24 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_arg22 main_arg23 main_arg24 main_v63 main_v67

def fn_part2 {F : FTy → Type} [FloatOps F] (main_arg8 : FVec F S128 .f32) (main_arg9 : FVec F S128x128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : FVec F S128x128 .f32) (main_arg17 : FVec F S128x128 .f32) (main_arg18 : FVec F S128 .f32) (main_arg19 : FVec F S128 .f32) (main_arg20 : FVec F S128 .f32) (main_arg21 : FVec F S128 .f32) (main_arg22 : FVec F S128 .f32) (main_arg23 : FVec F S128x1 .f32) (main_arg24 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_arg21 main_arg22 main_arg23 main_arg24 main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S128x128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : FVec F S128x128 .f32) (main_arg17 : FVec F S128x128 .f32) (main_arg18 : FVec F S128 .f32) (main_arg19 : FVec F S128 .f32) (main_arg20 : FVec F S128 .f32) (main_arg21 : FVec F S128 .f32) (main_arg22 : FVec F S128 .f32) (main_arg23 : FVec F S128x1 .f32) (main_arg24 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S100000x160 .f32) (main_arg1 : IVec S2x1600000 32) (main_arg2 : FVec F S160x128 .f32) (main_arg3 : FVec F S160x128 .f32) (main_arg4 : FVec F S128 .f32) (main_arg5 : FVec F S128 .f32) (main_arg6 : FVec F S128 .f32) (main_arg7 : FVec F S128 .f32) (main_arg8 : FVec F S128 .f32) (main_arg9 : FVec F S128x128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : FVec F S128x128 .f32) (main_arg17 : FVec F S128x128 .f32) (main_arg18 : FVec F S128 .f32) (main_arg19 : FVec F S128 .f32) (main_arg20 : FVec F S128 .f32) (main_arg21 : FVec F S128 .f32) (main_arg22 : FVec F S128 .f32) (main_arg23 : FVec F S128x1 .f32) (main_arg24 : FVec F S1 .f32) : IVec S_ 1 :=
  let main_v0 : FVec F S100000x160 .f32 := Host.absf main_arg0
  let main_cst : FVec F S_ .f32 := constant S_ .f32 0x7F800000#32
  let main_v1 : FVec F S100000x160 .f32 := broadcastInDim S100000x160 ![] bcast_S_S100000x160 main_cst
  let main_v2 : IVec S100000x160 1 := cmpf .olt main_v0 main_v1
  let main_c : IVec S_ 1 := constantI S_ 1 1#1
  let main_v3 : IVec S_ 1 := (fun x v => Host.reduce IntOp.andi x v reducesTo_S100000x160_S_d0_1 h_S_) main_v2 main_c
  let main_v4 : FVec F S160x128 .f32 := Host.absf main_arg2
  let main_cst_0 : FVec F S_ .f32 := constant S_ .f32 0x7F800000#32
  let main_v5 : FVec F S160x128 .f32 := broadcastInDim S160x128 ![] bcast_S_S160x128 main_cst_0
  let main_v6 : IVec S160x128 1 := cmpf .olt main_v4 main_v5
  let main_c_1 : IVec S_ 1 := constantI S_ 1 1#1
  let main_v7 : IVec S_ 1 := (fun x v => Host.reduce IntOp.andi x v reducesTo_S160x128_S_d0_1 h_S_) main_v6 main_c_1
  let main_v8 : IVec S_ 1 := andi main_v3 main_v7
  let main_v9 : FVec F S160x128 .f32 := Host.absf main_arg3
  let main_cst_2 : FVec F S_ .f32 := constant S_ .f32 0x7F800000#32
  let main_v10 : FVec F S160x128 .f32 := broadcastInDim S160x128 ![] bcast_S_S160x128 main_cst_2
  let main_v11 : IVec S160x128 1 := cmpf .olt main_v9 main_v10
  let main_c_3 : IVec S_ 1 := constantI S_ 1 1#1
  let main_v12 : IVec S_ 1 := (fun x v => Host.reduce IntOp.andi x v reducesTo_S160x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S100000x160 : Shape := ⟨2, ![100000, 160]⟩
abbrev S2x1600000 : Shape := ⟨2, ![2, 1600000]⟩
abbrev S160x128 : Shape := ⟨2, ![160, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x160 : Shape := ⟨2, ![1600000, 160]⟩
abbrev S1x128 : Shape := ⟨2, ![1, 128]⟩
abbrev S100000x128 : Shape := ⟨2, ![100000, 128]⟩
abbrev S5000x160 : Shape := ⟨2, ![5000, 160]⟩
abbrev S5000x1 : Shape := ⟨2, ![5000, 1]⟩
abbrev S5000x128 : Shape := ⟨2, ![5000, 128]⟩
abbrev S1600000x128 : Shape := ⟨2, ![1600000, 128]⟩
abbrev S1x1 : Shape := ⟨2, ![1, 1]⟩

abbrev nBuf : Space → Nat
  | .hbm => 116
  | .vmem => 42
  | .smem => 0
  | _ => 0

abbrev bufTy : (tb : Table) → Fin (tcTables nBuf tb) → BufTy
  | .hbm, ⟨0, _⟩ => ⟨S100000x160, .f32⟩
  | .hbm, ⟨1, _⟩ => ⟨S2x1600000, .i32⟩
  | .hbm, ⟨2, _⟩ => ⟨S160x128, .f32⟩
  | .hbm, ⟨3, _⟩ => ⟨S160x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128x128, .f32⟩
  | .hbm, ⟨17, _⟩ => ⟨S128x128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S128x1, .f32⟩
  | .hbm, ⟨24, _⟩ => ⟨S1, .f32⟩
  | .hbm, ⟨25, _⟩ => ⟨S1x1600000, .i32⟩
  | .hbm, ⟨26, _⟩ => ⟨S1600000, .i32⟩
  | .hbm, ⟨27, _⟩ => ⟨S1x1600000, .i32⟩
  | .hbm, ⟨28, _⟩ => ⟨S1600000, .i32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x160, .f32⟩
  | .hbm, ⟨51, _⟩ => ⟨S_, .f32⟩
  | .hbm, ⟨52, _⟩ => ⟨S100000x160, .f32⟩
  | .hbm, ⟨53, _⟩ => ⟨S1600000x1, .i32⟩
  | .hbm, ⟨54, _⟩ => ⟨S100000x160, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S100000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S_, .f32⟩
  | .hbm, ⟨75, _⟩ => ⟨S100000x128, .f32⟩
  | .hbm, ⟨76, _⟩ => ⟨S1600000x1, .i32⟩
  | .hbm, ⟨77, _⟩ => ⟨S100000x128, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S100000x128, .f32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x128, .f32⟩
  | .hbm, ⟨97, _⟩ => ⟨S_, .f32⟩
  | .hbm, ⟨98, _⟩ => ⟨S100000x128, .f32⟩
  | .hbm, ⟨99, _⟩ => ⟨S1600000x1, .i32⟩
  | .hbm, ⟨100, _⟩ => ⟨S100000x128, .f32⟩
  | .hbm, ⟨101, _⟩ => ⟨S_, .f32⟩
  | .hbm, ⟨102, _⟩ => ⟨S128, .f32⟩
  | .hbm, ⟨103, _⟩ => ⟨S128, .f32⟩
  | .hbm, ⟨104, _⟩ => ⟨S128, .f32⟩
  | .hbm, ⟨105, _⟩ => ⟨S128, .f32⟩
  | .hbm, ⟨106, _⟩ => ⟨S1x128, .f32⟩
  | .hbm, ⟨107, _⟩ => ⟨S1x128, .f32⟩
  | .hbm, ⟨108, _⟩ => ⟨S1x128, .f32⟩
  | .hbm, ⟨109, _⟩ => ⟨S1x128, .f32⟩
  | .hbm, ⟨110, _⟩ => ⟨S100000x128, .f32⟩
  | .hbm, ⟨111, _⟩ => ⟨S100000x1, .f32⟩
  | .hbm, ⟨112, _⟩ => ⟨S1x1, .f32⟩
  | .hbm, ⟨113, _⟩ => ⟨S100000x1, .f32⟩
  | .hbm, ⟨114, _⟩ => ⟨S100000x1, .f32⟩
  | .hbm, ⟨115, _⟩ => ⟨S100000, .f32⟩
  | .local _ .vmem, ⟨0, _⟩ => ⟨S5000x160, .f32⟩
  | .local _ .vmem, ⟨1, _⟩ => ⟨S5000x160, .f32⟩
  | .local _ .vmem, ⟨2, _⟩ => ⟨S5000x160, .f32⟩
  | .local _ .vmem, ⟨3, _⟩ => ⟨S5000x160, .f32⟩
  | .local _ .vmem, ⟨4, _⟩ => ⟨S5000x1, .f32⟩
  | .local _ .vmem, ⟨5, _⟩ => ⟨S5000x1, .f32⟩
  | .local _ .vmem, ⟨6, _⟩ => ⟨S160x128, .f32⟩
  | .local _ .vmem, ⟨7, _⟩ => ⟨S160x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S128x128, .f32⟩
  | .local _ .vmem, ⟨21, _⟩ => ⟨S128x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x1, .f32⟩
  | .local _ .vmem, ⟨33, _⟩ => ⟨S5000x1, .f32⟩
  | .local _ .vmem, ⟨34, _⟩ => ⟨S128x128, .f32⟩
  | .local _ .vmem, ⟨35, _⟩ => ⟨S128x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | _, _ => ⟨S100000x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_v9 : Ref sig .tc := ⟨.hbm, 37, rfl⟩
abbrev main_cst_2 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_c : Ref sig .tc := ⟨.hbm, 42, rfl⟩
abbrev main_v13 : Ref sig .tc := ⟨.hbm, 43, rfl⟩
abbrev main_v14 : Ref sig .tc := ⟨.hbm, 44, rfl⟩
abbrev main_c_3 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_4 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_5 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_6 : Ref sig .tc := ⟨.hbm, 65, rfl⟩
abbrev main_v32 : Ref sig .tc := ⟨.hbm, 66, rfl⟩
abbrev main_v33 : Ref sig .tc := ⟨.hbm, 67, rfl⟩
abbrev main_c_7 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_8 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_9 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_c_10 : Ref sig .tc := ⟨.hbm, 88, rfl⟩
abbrev main_v51 : Ref sig .tc := ⟨.hbm, 89, rfl⟩
abbrev main_v52 : Ref sig .tc := ⟨.hbm, 90, rfl⟩
abbrev main_c_11 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_12 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_13 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg9_0 : Ref sig .tc := ⟨.vmem, 40, rfl⟩
abbrev cc2_stg9_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem8_0 : DmaSem sig := 39
abbrev cc2_sem9_0 : DmaSem sig := 40
abbrev cc2_sem9_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x160 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x160 : S_.BroadcastsInDim S100000x160 (![] : Fin 0 → Fin S100000x160.rank)
  bcast_S_S128 : S_.BroadcastsInDim S128 (![] : Fin 0 → Fin S128.rank)
  shapeCasts_S128_S1x128 : S128.ShapeCasts S1x128
  inb_S5000x160_S5000x160_0_0 : ∀ a, (![0, 0] : Fin 2 → Nat) a + S5000x160.size a ≤ S5000x160.size a
  h_S5000x160 : 0 < S5000x160.numel
  shapeCasts_S5000x160_S5000x160 : S5000x160.ShapeCasts S5000x160
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x160 : S5000x1.Broadcasts S5000x160
  bitsLt_bf16_f32 : FTy.bits .bf16 < FTy.bits .f32
  inb_S160x128_S160x128_0_0 : ∀ a, (![0, 0] : Fin 2 → Nat) a + S160x128.size a ≤ S160x128.size a
  h_S160x128 : 0 < S160x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1600000x1_S1600000_n_0_0_1_wf : ScatterDims.WF S100000 S1600000x1 S1600000 [] [0] [0] 1
  gather_S100000x160_S1600000x1_S1600000x160_1_0_n_n_0_1_1160_wf : GatherDims.WF S100000x160 S1600000x1 S1600000x160 [1] [0] [] [0] [] 1 ![1, 160]
  scatter_S100000x160_S1600000x1_S1600000x160_1_0_0_1_wf : ScatterDims.WF S100000x160 S1600000x1 S1600000x160 [1] [0] [0] 1
  dot_S5000x160_S160x128_S5000x128_1_0_0_1_n_n_wf : DotDims.WF S5000x160 S160x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S100000x128_S128x1_S100000x1_1_0_0_1_n_n_wf : DotDims.WF S100000x128 S128x1 S100000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x160.size a ≤ S100000x160.size a
  hwx0_0 : ∀ i : grid0.Coords, EltTy.bits .f32 = 32 ∨ (Rect.block (s := S100000x160) S5000x160.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x160.size a ≤ S100000x160.size a
  hwx0_1 : ∀ i : grid0.Coords, EltTy.bits .f32 = 32 ∨ (Rect.block (s := S100000x160) S5000x160.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S160x128.size a ≤ S160x128.size a
  hwx0_3 : ∀ i : grid0.Coords, EltTy.bits .f32 = 32 ∨ (Rect.block (s := S160x128) S160x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S160x128.size a ≤ S160x128.size a
  hwx0_4 : ∀ i : grid0.Coords, EltTy.bits .f32 = 32 ∨ (Rect.block (s := S160x128) S160x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S100000x128.size a
  hwx0_9 : ∀ i : grid0.Coords, EltTy.bits .f32 = 32 ∨ (Rect.block (s := S100000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S100000x128.size a
  hwx1_9 : ∀ i : grid1.Coords, EltTy.bits .f32 = 32 ∨ (Rect.block (s := S100000x128) S5000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S100000x128.size a
  hwx2_9 : ∀ i : grid2.Coords, EltTy.bits .f32 = 32 ∨ (Rect.block (s := S100000x128) S5000x128.size (cc2_transform_9 i) (hinb2_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x160_S1600000x1_S1600000x160_1_0_n_n_0_1_1160 : GatherDims S100000x160 S1600000x1 S1600000x160 where
  offsetDims := [1]
  collapsedSliceDims := [0]
  operandBatchingDims := []
  startIndicesBatchingDims := []
  startIndexMap := [0]
  indexVectorDim := 1
  sliceSizes := ![1, 160]
  wf := gather_S100000x160_S1600000x1_S1600000x160_1_0_n_n_0_1_1160_wf
def scatter_S100000x160_S1600000x1_S1600000x160_1_0_0_1 : ScatterDims S100000x160 S1600000x1 S1600000x160 where
  updateWindowDims := [1]
  insertedWindowDims := [0]
  scatterDimsToOperandDims := [0]
  indexVectorDim := 1
  wf := scatter_S100000x160_S1600000x1_S1600000x160_1_0_0_1_wf
def dot_S5000x160_S160x128_S5000x128_1_0_0_1_n_n : DotDims S5000x160 S160x128 S5000x128 where
  lhsContracting := [1]
  rhsContracting := [0]
  lhsNonContracting := [0]
  rhsNonContracting := [1]
  lhsBatch := []
  rhsBatch := []
  wf := dot_S5000x160_S160x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

abbrev win0_0 : Pipeline.Window sig grid0 :=
  Pipeline.Window.ofSpec (Memref.whole main_v22) S5000x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x160.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S160x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S160x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v30) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v31) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v48) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v49) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v50) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v60) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg16) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg17) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v67) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v68) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v69) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x160 : Shape := ⟨2, ![100000, 160]⟩
abbrev S2x1600000 : Shape := ⟨2, ![2, 1600000]⟩
abbrev S160x128 : Shape := ⟨2, ![160, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x160 : Shape := ⟨2, ![1600000, 160]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x1 : Shape := ⟨2, ![1, 1]⟩

abbrev nBuf : Space → Nat
  | .hbm => 178
  | .vmem => 0
  | .smem => 0
  | _ => 0

abbrev hbmTy0_0 (i : Nat) : BufTy := match i % 128 with
  | 0 => ⟨S100000x160, .f32⟩
  | 1 => ⟨S2x1600000, .i32⟩
  | 2 => ⟨S160x128, .f32⟩
  | 3 => ⟨S160x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128x128, .f32⟩
  | 11 => ⟨S128, .f32⟩
  | 12 => ⟨S128, .f32⟩
  | 13 => ⟨S128, .f32⟩
  | 14 => ⟨S128, .f32⟩
  | 15 => ⟨S128, .f32⟩
  | 16 => ⟨S128x128, .f32⟩
  | 17 => ⟨S128x128, .f32⟩
  | 18 => ⟨S128, .f32⟩
  | 19 => ⟨S128, .f32⟩
  | 20 => ⟨S128, .f32⟩
  | 21 => ⟨S128, .f32⟩
  | 22 => ⟨S128, .f32⟩
  | 23 => ⟨S128x1, .f32⟩
  | 24 => ⟨S1, .f32⟩
  | 25 => ⟨S1x1600000, .i32⟩
  | 26 => ⟨S1600000, .i32⟩
  | 27 => ⟨S1x1600000, .i32⟩
  | 28 => ⟨S1600000, .i32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x160, .f32⟩
  | 38 => ⟨S_, .f32⟩
  | 39 => ⟨S100000x160, .f32⟩
  | 40 => ⟨S1600000x1, .i32⟩
  | 41 => ⟨S100000x160, .f32⟩
  | 42 => ⟨S_, .f32⟩
  | 43 => ⟨S1600000, .f32⟩
  | 44 => ⟨S_, .f32⟩
  | 45 => ⟨S100000, .f32⟩
  | 46 => ⟨S1600000x1, .i32⟩
  | 47 => ⟨S100000, .f32⟩
  | 48 => ⟨S_, .f32⟩
  | 49 => ⟨S100000, .f32⟩
  | 50 => ⟨S100000, .f32⟩
  | 51 => ⟨S100000x1, .f32⟩
  | 52 => ⟨S100000x160, .f32⟩
  | 53 => ⟨S100000x160, .f32⟩
  | 54 => ⟨S100000x128, .f32⟩
  | 55 => ⟨S1x128, .f32⟩
  | 56 => ⟨S100000x128, .f32⟩
  | 57 => ⟨S100000x128, .f32⟩
  | 58 => ⟨S100000x128, .f32⟩
  | 59 => ⟨S100000x128, .f32⟩
  | 60 => ⟨S1x128, .f32⟩
  | 61 => ⟨S100000x128, .f32⟩
  | 62 => ⟨S100000x128, .f32⟩
  | 63 => ⟨S_, .f32⟩
  | 64 => ⟨S128, .f32⟩
  | 65 => ⟨S128, .f32⟩
  | 66 => ⟨S128, .f32⟩
  | 67 => ⟨S128, .f32⟩
  | 68 => ⟨S1x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x128, .f32⟩
  | 86 => ⟨S_, .f32⟩
  | 87 => ⟨S100000x128, .f32⟩
  | 88 => ⟨S1600000x1, .i32⟩
  | 89 => ⟨S100000x128, .f32⟩
  | 90 => ⟨S_, .f32⟩
  | 91 => ⟨S1600000, .f32⟩
  | 92 => ⟨S_, .f32⟩
  | 93 => ⟨S100000, .f32⟩
  | 94 => ⟨S1600000x1, .i32⟩
  | 95 => ⟨S100000, .f32⟩
  | 96 => ⟨S_, .f32⟩
  | 97 => ⟨S100000, .f32⟩
  | 98 => ⟨S100000, .f32⟩
  | 99 => ⟨S100000x1, .f32⟩
  | 100 => ⟨S100000x128, .f32⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S_, .f32⟩
  | 112 => ⟨S128, .f32⟩
  | 113 => ⟨S128, .f32⟩
  | 114 => ⟨S128, .f32⟩
  | 115 => ⟨S128, .f32⟩
  | 116 => ⟨S1x128, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S_, .f32⟩
  | 123 => ⟨S100000x128, .f32⟩
  | 124 => ⟨S100000x128, .f32⟩
  | 125 => ⟨S_, .i32⟩
  | 126 => ⟨S1600000, .i32⟩
  | 127 => ⟨S1600000, .i1⟩
  | _ => ⟨S100000x160, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x128, .f32⟩
  | 6 => ⟨S_, .f32⟩
  | 7 => ⟨S100000x128, .f32⟩
  | 8 => ⟨S1600000x1, .i32⟩
  | 9 => ⟨S100000x128, .f32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S100000x1, .f32⟩
  | 20 => ⟨S100000x128, .f32⟩
  | 21 => ⟨S100000x128, .f32⟩
  | 22 => ⟨S100000x128, .f32⟩
  | 23 => ⟨S1x128, .f32⟩
  | 24 => ⟨S100000x128, .f32⟩
  | 25 => ⟨S100000x128, .f32⟩
  | 26 => ⟨S100000x128, .f32⟩
  | 27 => ⟨S100000x128, .f32⟩
  | 28 => ⟨S1x128, .f32⟩
  | 29 => ⟨S100000x128, .f32⟩
  | 30 => ⟨S100000x128, .f32⟩
  | 31 => ⟨S_, .f32⟩
  | 32 => ⟨S128, .f32⟩
  | 33 => ⟨S128, .f32⟩
  | 34 => ⟨S128, .f32⟩
  | 35 => ⟨S128, .f32⟩
  | 36 => ⟨S1x128, .f32⟩
  | 37 => ⟨S100000x128, .f32⟩
  | 38 => ⟨S100000x128, .f32⟩
  | 39 => ⟨S1x128, .f32⟩
  | 40 => ⟨S100000x128, .f32⟩
  | 41 => ⟨S100000x128, .f32⟩
  | 42 => ⟨S_, .f32⟩
  | 43 => ⟨S100000x128, .f32⟩
  | 44 => ⟨S100000x128, .f32⟩
  | 45 => ⟨S100000x1, .f32⟩
  | 46 => ⟨S1x1, .f32⟩
  | 47 => ⟨S100000x1, .f32⟩
  | 48 => ⟨S100000x1, .f32⟩
  | 49 => ⟨S100000, .f32⟩
  | _ => ⟨S100000x160, .f32⟩

abbrev hbmTy (i : Nat) : BufTy := match i / 128 with
  | 0 => hbmTy0_0 i
  | 1 => hbmTy0_1 i
  | _ => ⟨S100000x160, .f32⟩

abbrev bufTy : (tb : Table) → Fin (tcTables nBuf tb) → BufTy
  | .hbm, ⟨i, _⟩ => hbmTy i
  | _, _ => ⟨S100000x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_1 : Ref sig .tc := ⟨.hbm, 42, rfl⟩
abbrev main_v14 : Ref sig .tc := ⟨.hbm, 43, rfl⟩
abbrev main_cst_2 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_4 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_call0_cst : Ref sig .tc := ⟨.hbm, 74, rfl⟩
abbrev main_call0_v0 : Ref sig .tc := ⟨.hbm, 75, rfl⟩
abbrev main_v42 : Ref sig .tc := ⟨.hbm, 76, rfl⟩
abbrev main_c_5 : Ref sig .tc := ⟨.hbm, 77, rfl⟩
abbrev main_v43 : Ref sig .tc := ⟨.hbm, 78, rfl⟩
abbrev main_v44 : Ref sig .tc := ⟨.hbm, 79, rfl⟩
abbrev main_c_6 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_7 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_8 : Ref sig .tc := ⟨.hbm, 90, rfl⟩
abbrev main_v53 : Ref sig .tc := ⟨.hbm, 91, rfl⟩
abbrev main_cst_9 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_10 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_11 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_call1_cst : Ref sig .tc := ⟨.hbm, 122, rfl⟩
abbrev main_call1_v0 : Ref sig .tc := ⟨.hbm, 123, rfl⟩
abbrev main_v81 : Ref sig .tc := ⟨.hbm, 124, rfl⟩
abbrev main_c_12 : Ref sig .tc := ⟨.hbm, 125, rfl⟩
abbrev main_v82 : Ref sig .tc := ⟨.hbm, 126, rfl⟩
abbrev main_v83 : Ref sig .tc := ⟨.hbm, 127, rfl⟩
abbrev main_c_13 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_14 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_15 : Ref sig .tc := ⟨.hbm, 138, rfl⟩
abbrev main_v92 : Ref sig .tc := ⟨.hbm, 139, rfl⟩
abbrev main_cst_16 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_cst_17 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_18 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_call2_cst : Ref sig .tc := ⟨.hbm, 170, rfl⟩
abbrev main_call2_v0 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x160 : S_.BroadcastsInDim S100000x160 (![] : Fin 0 → Fin S100000x160.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x160_0_1 : S100000x1.BroadcastsInDim S100000x160 (![0, 1] : Fin 2 → Fin S100000x160.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x160_S1600000x1_S1600000x160_1_0_n_n_0_1_1160_wf : GatherDims.WF S100000x160 S1600000x1 S1600000x160 [1] [0] [] [0] [] 1 ![1, 160]
  scatter_S100000x160_S1600000x1_S1600000x160_1_0_0_1_wf : ScatterDims.WF S100000x160 S1600000x1 S1600000x160 [1] [0] [0] 1
  scatter_S100000_S1600000x1_S1600000_n_0_0_1_wf : ScatterDims.WF S100000 S1600000x1 S1600000 [] [0] [0] 1
  dot_S100000x160_S160x128_S100000x128_1_0_0_1_n_n_wf : DotDims.WF S100000x160 S160x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x160_S1600000x1_S1600000x160_1_0_n_n_0_1_1160 : GatherDims S100000x160 S1600000x1 S1600000x160 where
  offsetDims := [1]
  collapsedSliceDims := [0]
  operandBatchingDims := []
  startIndicesBatchingDims := []
  startIndexMap := [0]
  indexVectorDim := 1
  sliceSizes := ![1, 160]
  wf := gather_S100000x160_S1600000x1_S1600000x160_1_0_n_n_0_1_1160_wf
def scatter_S100000x160_S1600000x1_S1600000x160_1_0_0_1 : ScatterDims S100000x160 S1600000x1 S1600000x160 where
  updateWindowDims := [1]
  insertedWindowDims := [0]
  scatterDimsToOperandDims := [0]
  indexVectorDim := 1
  wf := scatter_S100000x160_S1600000x1_S1600000x160_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x160_S160x128_S100000x128_1_0_0_1_n_n : DotDims S100000x160 S160x128 S100000x128 where
  lhsContracting := [1]
  rhsContracting := [0]
  lhsNonContracting := [0]
  rhsNonContracting := [1]
  lhsBatch := []
  rhsBatch := []
  wf := dot_S100000x160_S160x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The idealized kernel's run with every buffer it leaves named.

  The program is three kernel launches among four stretches of host operations. Its contents at each boundary are a
  fold from the launch memory: a stretch applies its operations to the contents before it, a launch replaces its
  arrays by what the launch's write-backs leave and keeps every other buffer. Every weakly fair execution terminates
  without a fault, and the final memory holds, at every buffer that outlives a launch, the last stage of that fold.
  In particular the result buffer holds the fold's value there, and each argument array is as launched.
-/
import proofs.«179291_j9483287789910_1_alg».proof.Proof.Gen.KernelIdeal.Frame

set_option maxRecDepth 16384

noncomputable section

namespace Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and every buffer that is not scoped to a launch ends at
    the last stage of the fold of the program's segments from the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The same run, read at the result buffer and at the arguments: the result is the fold's last stage there, and no
    segment writes an argument. -/
theorem run_value : θ_run defs (onTc (τ := τ) (main (F := F))) ⟨m, fun _ => 0, ρ⟩ (fun r => ∀ c : Dev nD,
      r.2.mem ((c.tc : Thread nD τ).loc main_v74) = W7 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => ⟨h c _ (mem_uc main_v74 (by decide)),
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c),
      (h c _ (mem_uc main_arg10 (by decide))).trans (W7_main_arg10 m ρ c),
      (h c _ (mem_uc main_arg11 (by decide))).trans (W7_main_arg11 m ρ c),
      (h c _ (mem_uc main_arg12 (by decide))).trans (W7_main_arg12 m ρ c),
      (h c _ (mem_uc main_arg13 (by decide))).trans (W7_main_arg13 m ρ c),
      (h c _ (mem_uc main_arg14 (by decide))).trans (W7_main_arg14 m ρ c),
      (h c _ (mem_uc main_arg15 (by decide))).trans (W7_main_arg15 m ρ c),
      (h c _ (mem_uc main_arg16 (by decide))).trans (W7_main_arg16 m ρ c),
      (h c _ (mem_uc main_arg17 (by decide))).trans (W7_main_arg17 m ρ c),
      (h c _ (mem_uc main_arg18 (by decide))).trans (W7_main_arg18 m ρ c),
      (h c _ (mem_uc main_arg19 (by decide))).trans (W7_main_arg19 m ρ c),
      (h c _ (mem_uc main_arg20 (by decide))).trans (W7_main_arg20 m ρ c),
      (h c _ (mem_uc main_arg21 (by decide))).trans (W7_main_arg21 m ρ c),
      (h c _ (mem_uc main_arg22 (by decide))).trans (W7_main_arg22 m ρ c),
      (h c _ (mem_uc main_arg23 (by decide))).trans (W7_main_arg23 m ρ c),
      (h c _ (mem_uc main_arg24 (by decide))).trans (W7_main_arg24 m ρ c)⟩)
    (run_all m ρ)

end Cert.KernelIdeal.Fold

end
-- ==== Proof.LibSageNormSpec.lean ====
/-
  One layer of a mean-aggregating graph network followed by a normalising affine map and a ramp, as a function of rows.

  For a row p and an output column q the layer's entry is

      max( ((Σ_c (agg(p,c) · r(p)) · Wl(c,q) + Σ_c h(p,c) · Wr(c,q)) + bl(q) − μ(q)) · s(q) + β(q), z )

  where agg is the sum of the neighbours' rows, r(p) the reciprocal of the guarded neighbour count of row p, h the
  row's own features, bl the bias, μ the running mean, s the normalisation's scale, β its shift and z the ramp's floor.
  The entry at row p reads agg, h and r at row p only: a block of consecutive rows of the result is the same function
  of the same block of rows of the three row-indexed operands (`layerAt_congr`).
-/
import Idealize.ShloMosaic.PureOps.Ideal.Laws
import Idealize.ShloMosaic.Lib.ValueIdx

noncomputable section

namespace Cert.SageNorm

open Idealize.ShloMosaic Idealize.ShloMosaic.ValueIdx

/-- The entry at row `p` and column `q` of one layer: both products as sums over the contracted coordinate, the
    neighbour sum scaled by the row's reciprocal count before it is multiplied, then bias, mean, scale, shift and the
    ramp against `z`. -/
def layerAt {n d e : ℕ} (agg h : FVec Ideal ⟨2, ![n, d]⟩ .f32) (cinv : FVec Ideal ⟨2, ![n, 1]⟩ .f32)
    (wl wr : FVec Ideal ⟨2, ![d, e]⟩ .f32) (bl sc be rm : FVec Ideal ⟨2, ![1, e]⟩ .f32) (z : EReal)
    (p : Fin n) (q : Fin e) : EReal :=
  max ((((∑ c : Fin d, (agg (ix2 p c) * cinv (ix2 p (0 : Fin 1))) * wl (ix2 c q))
          + ∑ c : Fin d, h (ix2 p c) * wr (ix2 c q))
        + bl (ix2 (0 : Fin 1) q) - rm (ix2 (0 : Fin 1) q)) * sc (ix2 (0 : Fin 1) q) + be (ix2 (0 : Fin 1) q)) z

/-- The layer as one array: the entry function at the index's two coordinates. -/
def layer {n d e : ℕ} (agg h : FVec Ideal ⟨2, ![n, d]⟩ .f32) (cinv : FVec Ideal ⟨2, ![n, 1]⟩ .f32)
    (wl wr : FVec Ideal ⟨2, ![d, e]⟩ .f32) (bl sc be rm : FVec Ideal ⟨2, ![1, e]⟩ .f32) (z : EReal) :
    FVec Ideal ⟨2, ![n, e]⟩ .f32 :=
  fun i => layerAt agg h cinv wl wr bl sc be rm z (i 0) (i 1)

theorem layer_apply {n d e : ℕ} (agg h : FVec Ideal ⟨2, ![n, d]⟩ .f32) (cinv : FVec Ideal ⟨2, ![n, 1]⟩ .f32)
    (wl wr : FVec Ideal ⟨2, ![d, e]⟩ .f32) (bl sc be rm : FVec Ideal ⟨2, ![1, e]⟩ .f32) (z : EReal)
    (p : Fin n) (q : Fin e) :
    layer agg h cinv wl wr bl sc be rm z (ix2 p q) = layerAt agg h cinv wl wr bl sc be rm z p q := rfl

/-- The entry at a row depends on the three row-indexed operands through that row alone, and on the other six through
    the column alone: two sets of operands that agree there give the same entry (rows `p` of one and `p'` of the other). -/
theorem layerAt_congr {n n' d e : ℕ}
    (agg h : FVec Ideal ⟨2, ![n, d]⟩ .f32) (cinv : FVec Ideal ⟨2, ![n, 1]⟩ .f32)
    (agg' h' : FVec Ideal ⟨2, ![n', d]⟩ .f32) (cinv' : FVec Ideal ⟨2, ![n', 1]⟩ .f32)
    (wl wr wl' wr' : FVec Ideal ⟨2, ![d, e]⟩ .f32) (bl sc be rm bl' sc' be' rm' : FVec Ideal ⟨2, ![1, e]⟩ .f32) (z : EReal)
    (p : Fin n) (p' : Fin n') (q : Fin e)
    (hagg : ∀ c, agg (ix2 p c) = agg' (ix2 p' c)) (hh : ∀ c, h (ix2 p c) = h' (ix2 p' c))
    (hc : cinv (ix2 p (0 : Fin 1)) = cinv' (ix2 p' (0 : Fin 1)))
    (hwl : wl = wl') (hwr : wr = wr') (hbl : bl = bl') (hsc : sc = sc') (hbe : be = be') (hrm : rm = rm') :
    layerAt agg h cinv wl wr bl sc be rm z p q = layerAt agg' h' cinv' wl' wr' bl' sc' be' rm' z p' q := by
  subst hwl hwr hbl hsc hbe hrm
  unfold layerAt
  simp only [hagg, hh, hc]

end Cert.SageNorm

end
-- ==== Proof.KernelTerms.lean ====
/-
  The idealized kernel's host computations, named.

  Around its three launches the program computes, from the edge list, the source and target node of each edge (a source
  below zero wraps by the number of nodes), the sum over the incoming edges of the source rows of a feature array, the
  number of incoming edges of each node and the reciprocal of that number guarded from below by one; from each layer's
  parameters the bias, scale, shift and mean as rows, the scale being the gain times the reciprocal square root of the
  variance plus a small constant; and, after the last launch, a product with a column of weights plus a constant. A layer
  is the launch's function of the neighbour sums of its input, the input itself, the reciprocal counts and the
  parameters; the program's result is the last step applied to three layers, each fed the one before.
-/
import proofs.«179291_j9483287789910_1_alg».proof.Proof.Gen.KernelIdeal
import proofs.«179291_j9483287789910_1_alg».proof.Proof.LibSageNormSpec
import Idealize.ShloMosaic.PureOps.Ideal

noncomputable section

namespace Cert.KernelIdeal.Terms

open Idealize.ShloMosaic Cert.KernelIdeal Cert.KernelIdeal.Gen Cert.SageNorm

abbrev CF (s : Shape) := FVec Ideal s .f32
abbrev CI (s : Shape) := IVec s 32

/-- The ramp's floor: the word for zero, as the body's scalar constant. -/
abbrev floor0 : Ideal .f32 := Scalar.ofBits (F := Ideal) .f32 0x00000000#32

/-- Each edge's source node, as stored. -/
def srcRaw (e : CI S2x1600000) : CI S1600000 :=
  shapeCast S1600000 (extractStridedSlice S1x1600000 ![0, 0] e slices_S2x1600000_S1x1600000_0_0) shapeCasts_S1x1600000_S1600000
/-- Each edge's target node, as stored. -/
def dstRaw (e : CI S2x1600000) : CI S1600000 :=
  shapeCast S1600000 (extractStridedSlice S1x1600000 ![1, 0] e slices_S2x1600000_S1x1600000_1_0) shapeCasts_S1x1600000_S1600000
/-- The source nodes as a column of row numbers, a negative one wrapped by the number of nodes. -/
def srcIdx (s : CI S1600000) : CI S1600000x1 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)
/-- The target nodes as a column of row numbers. -/
def dstIdx (d : CI S1600000) : CI S1600000x1 := broadcastInDim S1600000x1 ![0] bcast_S1600000_S1600000x1_0 d

/-- The sum, over the edges into each node, of the source node's row: width 160. -/
def agg160 (h : CF S100000x160) (s d : CI S1600000) : CF S100000x160 :=
  Host.scatterAdd (F := Ideal) scatter_S100000x160_S1600000x1_S1600000x160_1_0_0_1
    (broadcastInDim S100000x160 ![] bcast_S_S100000x160 (constant (F := Ideal) S_ .f32 0x00000000#32)) (dstIdx d)
    (Host.gather gather_S100000x160_S1600000x1_S1600000x160_1_0_n_n_0_1_1160 h (srcIdx s))
/-- The same at width 128. -/
def agg128 (h : CF S100000x128) (s d : CI S1600000) : CF S100000x128 :=
  Host.scatterAdd (F := Ideal) scatter_S100000x128_S1600000x1_S1600000x128_1_0_0_1
    (broadcastInDim S100000x128 ![] bcast_S_S100000x128 (constant (F := Ideal) S_ .f32 0x00000000#32)) (dstIdx d)
    (Host.gather gather_S100000x128_S1600000x1_S1600000x128_1_0_n_n_0_1_1128 h (srcIdx s))

/-- The number of edges into each node. -/
def cnt (d : CI S1600000) : CF S100000 :=
  Host.scatterAdd (F := Ideal) scatter_S100000_S1600000x1_S1600000_n_0_0_1
    (broadcastInDim S100000 ![] bcast_S_S100000 (constant (F := Ideal) S_ .f32 0x00000000#32)) (dstIdx d)
    (broadcastInDim S1600000 ![] bcast_S_S1600000 (constant (F := Ideal) S_ .f32 0x3F800000#32))
/-- The count guarded from below by one. -/
def cntMax (d : CI S1600000) : CF S100000 :=
  maximumf (cnt d) (broadcastInDim S100000 ![] bcast_S_S100000 (constant (F := Ideal) S_ .f32 0x3F800000#32))
/-- One over the guarded count, as a column. -/
def cinv (d : CI S1600000) : CF S100000x1 :=
  shapeCast S100000x1 (Host.divf (F := Ideal) (broadcastInDim S100000 ![] bcast_S_S100000 (constant (F := Ideal) S_ .f32 0x3F800000#32)) (cntMax d))
    shapeCasts_S100000_S100000x1

/-- A parameter vector as a row. -/
def row (v : CF S128) : CF S1x128 := shapeCast S1x128 v shapeCasts_S128_S1x128
/-- The normalisation's scale: the gain times the reciprocal square root of the variance plus a small constant. -/
def scaleVec (g rv : CF S128) : CF S128 :=
  mulf g (Host.rsqrt (F := Ideal) (addf rv (broadcastInDim S128 ![] bcast_S_S128 (constant (F := Ideal) S_ .f32 0x3727C5AC#32))))

/-- The last step: the product with the weight column plus the constant, as a vector. -/
def head (h : CF S100000x128) (lw : CF S128x1) (lb : CF S1) : CF S100000 :=
  shapeCast S100000 (addf (Host.dotGeneral (F := Ideal) dot_S100000x128_S128x1_S100000x1_1_0_0_1_n_n none h lw)
    (broadcastInDim S100000x1 ![0, 1] bcast_S1x1_S100000x1_0_1 (broadcastInDim S1x1 ![1] bcast_S1_S1x1_1 lb))) shapeCasts_S100000x1_S100000

/-- A layer from width 160. -/
def layer160 (h : CF S100000x160) (e : CI S2x1600000) (wl wr : CF S160x128) (bl g be rm rv : CF S128) : CF S100000x128 :=
  layer (agg160 h (srcRaw e) (dstRaw e)) h (cinv (dstRaw e)) wl wr (row bl) (row (scaleVec g rv)) (row be) (row rm) floor0
/-- A layer from width 128. -/
def layer128 (h : CF S100000x128) (e : CI S2x1600000) (wl wr : CF S128x128) (bl g be rm rv : CF S128) : CF S100000x128 :=
  layer (agg128 h (srcRaw e) (dstRaw e)) h (cinv (dstRaw e)) wl wr (row bl) (row (scaleVec g rv)) (row be) (row rm) floor0

end Cert.KernelIdeal.Terms

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibRowStat.lean ====
/-
  Rows of a rank-2 array: the keepdims layouts of a row statistic, read at an index written by coordinates.

  A statistic of each row of an [a, b] array (a sum over the b lanes) is an [a] vector; to be combined with the array again it
  is cast to an [a, 1] column and the column is broadcast back over the b lanes. Each of these reads its operand at the row
  coordinate alone; the lane sum ranges over the lane coordinate.
-/
import Idealize.ShloMosaic.PureOps.Ideal.Laws
import Idealize.ShloMosaic.Lib.ValueIdx
import Idealize.ShloMosaic.Lib.Pipeline.Value

namespace Cert.LibRowStat

open Idealize.ShloMosaic Idealize.ShloMosaic.ValueIdx

variable {α : Type}

/-- An `[a, 1]` column broadcast to `[a, b]` reads, at `(p, q)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => exact (if_pos rfl).symm

/-- The sum of an `[a, b]` array over its lanes reads, at row `p`, the sum over `k` of the array at `(p, k)`. At the ideal
    values. -/
theorem sum_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext
      (match ax with | ⟨0, _⟩ => rfl | ⟨1, _⟩ => rfl)))

end Cert.LibRowStat
-- ==== Proof.LibSageNormBody.lean ====
/-
  The kernel body's arithmetic, read at one entry.

  The body multiplies the neighbour sums by the row's reciprocal count, forms the two products into zero accumulators,
  adds the bias row, subtracts the mean row, multiplies by the scale row, adds the shift row and takes the maximum with
  a floor. At the ideal values a change of format is the identity and a product into the zero accumulator is the plain
  sum over the contracted coordinate, so at row p and column q this tree of operations is the layer's entry function.
-/
import proofs.«179291_j9483287789910_1_alg».proof.Proof.LibSageNormSpec
import proofs.«179291_j9483287789910_1_alg».proof.Proof.LibMatmulPlain
import proofs.«179291_j9483287789910_1_alg».proof.Proof.LibRowStat
import Idealize.ShloMosaic.Lib.ValueLayout
import Idealize.ShloMosaic.Lib.Pipeline.Value

noncomputable section

namespace Cert.SageNorm

open Idealize.ShloMosaic Idealize.ShloMosaic.ValueIdx

/-- The body's operation tree at `(p, q)` is the layer's entry: for any block height `n`, feature width `d` and output
    width `e`, whatever proofs the casts, broadcasts and the product's dimension record carry. -/
theorem tree_apply {n d e : ℕ}
    (v0 v7 : FVec Ideal ⟨2, ![n, d]⟩ .f32) (v2 : FVec Ideal ⟨2, ![n, 1]⟩ .f32)
    (v9 v11 : FVec Ideal ⟨2, ![d, e]⟩ .f32) (v16 v20 v24 v28 : FVec Ideal ⟨2, ![1, e]⟩ .f32)
    (c0 : (⟨2, ![n, d]⟩ : Shape).ShapeCasts ⟨2, ![n, d]⟩) (c1 : (⟨2, ![n, 1]⟩ : Shape).ShapeCasts ⟨2, ![n, 1]⟩)
    (b1 : (⟨2, ![n, 1]⟩ : Shape).Broadcasts ⟨2, ![n, d]⟩) (hb : FTy.bf16.bits < FTy.f32.bits)
    (D : DotDims ⟨2, ![n, d]⟩ ⟨2, ![d, e]⟩ ⟨2, ![n, e]⟩) (hD : D = DotDims.plain n d e)
    (c2 : (⟨2, ![1, e]⟩ : Shape).ShapeCasts ⟨2, ![1, e]⟩) (b2 : (⟨2, ![1, e]⟩ : Shape).Broadcasts ⟨2, ![n, e]⟩)
    (z : Ideal .f32) (p : Fin n) (q : Fin e) :
    maximumf (addf (mulf (subf (addf (addf
        (matmul D none (truncf .bf16 (mulf (shapeCast ⟨2, ![n, d]⟩ v0 c0) (broadcastTo ⟨2, ![n, d]⟩ (shapeCast ⟨2, ![n, 1]⟩ v2 c1) b1)) hb)
          (truncf .bf16 v9 hb) (constant (F := Ideal) ⟨2, ![n, e]⟩ .f32 0x00000000#32))
        (matmul D none (truncf .bf16 v7 hb) (truncf .bf16 v11 hb) (constant (F := Ideal) ⟨2, ![n, e]⟩ .f32 0x00000000#32)))
        (broadcastTo ⟨2, ![n, e]⟩ (shapeCast ⟨2, ![1, e]⟩ v16 c2) b2))
        (broadcastTo ⟨2, ![n, e]⟩ (shapeCast ⟨2, ![1, e]⟩ v20 c2) b2))
        (broadcastTo ⟨2, ![n, e]⟩ (shapeCast ⟨2, ![1, e]⟩ v24 c2) b2))
        (broadcastTo ⟨2, ![n, e]⟩ (shapeCast ⟨2, ![1, e]⟩ v28 c2) b2))
      (broadcast ⟨2, ![n, e]⟩ z) (ix2 p q)
      = layerAt v0 v7 v2 v9 v11 v16 v24 v28 v20 z p q := by
  subst hD
  simp only [maximumf_apply, addf_apply, mulf_apply, subf_apply, broadcast_apply,
    Cert.LibMatmulPlain.matmul_plain_zero_apply, truncf_apply, shapeCast_self, broadcastTo_1b_ab_apply,
    Cert.LibRowStat.broadcastTo_a1_ab_apply]
  rfl

/-- The same tree with the node features passed through an identity cast before their format change (the spelling of a
    launch whose input and output blocks have one shape). -/
theorem tree_apply_cast {n d e : ℕ}
    (v0 v7 : FVec Ideal ⟨2, ![n, d]⟩ .f32) (v2 : FVec Ideal ⟨2, ![n, 1]⟩ .f32)
    (v9 v11 : FVec Ideal ⟨2, ![d, e]⟩ .f32) (v16 v20 v24 v28 : FVec Ideal ⟨2, ![1, e]⟩ .f32)
    (c0 : (⟨2, ![n, d]⟩ : Shape).ShapeCasts ⟨2, ![n, d]⟩) (c1 : (⟨2, ![n, 1]⟩ : Shape).ShapeCasts ⟨2, ![n, 1]⟩)
    (b1 : (⟨2, ![n, 1]⟩ : Shape).Broadcasts ⟨2, ![n, d]⟩) (hb : FTy.bf16.bits < FTy.f32.bits)
    (D : DotDims ⟨2, ![n, d]⟩ ⟨2, ![d, e]⟩ ⟨2, ![n, e]⟩) (hD : D = DotDims.plain n d e)
    (c2 : (⟨2, ![1, e]⟩ : Shape).ShapeCasts ⟨2, ![1, e]⟩) (b2 : (⟨2, ![1, e]⟩ : Shape).Broadcasts ⟨2, ![n, e]⟩)
    (z : Ideal .f32) (p : Fin n) (q : Fin e) :
    maximumf (addf (mulf (subf (addf (addf
        (matmul D none (truncf .bf16 (mulf (shapeCast ⟨2, ![n, d]⟩ v0 c0) (broadcastTo ⟨2, ![n, d]⟩ (shapeCast ⟨2, ![n, 1]⟩ v2 c1) b1)) hb)
          (truncf .bf16 v9 hb) (constant (F := Ideal) ⟨2, ![n, e]⟩ .f32 0x00000000#32))
        (matmul D none (truncf .bf16 (shapeCast ⟨2, ![n, d]⟩ v7 c0) hb) (truncf .bf16 v11 hb) (constant (F := Ideal) ⟨2, ![n, e]⟩ .f32 0x00000000#32)))
        (broadcastTo ⟨2, ![n, e]⟩ (shapeCast ⟨2, ![1, e]⟩ v16 c2) b2))
        (broadcastTo ⟨2, ![n, e]⟩ (shapeCast ⟨2, ![1, e]⟩ v20 c2) b2))
        (broadcastTo ⟨2, ![n, e]⟩ (shapeCast ⟨2, ![1, e]⟩ v24 c2) b2))
        (broadcastTo ⟨2, ![n, e]⟩ (shapeCast ⟨2, ![1, e]⟩ v28 c2) b2))
      (broadcast ⟨2, ![n, e]⟩ z) (ix2 p q)
      = layerAt v0 v7 v2 v9 v11 v16 v24 v28 v20 z p q := by
  subst hD
  simp only [maximumf_apply, addf_apply, mulf_apply, subf_apply, broadcast_apply,
    Cert.LibMatmulPlain.matmul_plain_zero_apply, truncf_apply, shapeCast_self, broadcastTo_1b_ab_apply,
    Cert.LibRowStat.broadcastTo_a1_ab_apply]
  rfl

/-- A block of rows: when a block's three row-indexed operands are the whole arrays' rows from offset `o` on, and its other
    six operands are the whole arrays', the layer's entry on the block at `j` is the whole layer at the index `i` whose row
    is `o` plus `j`'s and whose column is `j`'s. -/
theorem layer_block {n nb d e : ℕ}
    (x0 x1 : FVec Ideal ⟨2, ![nb, d]⟩ .f32) (x2 : FVec Ideal ⟨2, ![nb, 1]⟩ .f32)
    (A0 A1 : FVec Ideal ⟨2, ![n, d]⟩ .f32) (A2 : FVec Ideal ⟨2, ![n, 1]⟩ .f32)
    (x3 x4 A3 A4 : FVec Ideal ⟨2, ![d, e]⟩ .f32) (x5 x6 x7 x8 A5 A6 A7 A8 : FVec Ideal ⟨2, ![1, e]⟩ .f32) (z : EReal)
    (j : (⟨2, ![nb, e]⟩ : Shape).Idx) (i : (⟨2, ![n, e]⟩ : Shape).Idx) (o : ℕ)
    (hi0 : (i 0).val = o + (j 0).val) (hi1 : (i 1).val = (j 1).val)
    (h0 : ∀ (r : Fin nb) (c : Fin d) (p : Fin n), p.val = o + r.val → x0 (ix2 r c) = A0 (ix2 p c))
    (h1 : ∀ (r : Fin nb) (c : Fin d) (p : Fin n), p.val = o + r.val → x1 (ix2 r c) = A1 (ix2 p c))
    (h2 : ∀ (r : Fin nb) (p : Fin n), p.val = o + r.val → x2 (ix2 r (0 : Fin 1)) = A2 (ix2 p (0 : Fin 1)))
    (h3 : x3 = A3) (h4 : x4 = A4) (h5 : x5 = A5) (h6 : x6 = A6) (h7 : x7 = A7) (h8 : x8 = A8) :
    layerAt x0 x1 x2 x3 x4 x5 x6 x7 x8 z (j 0) (j 1) = layer A0 A1 A2 A3 A4 A5 A6 A7 A8 z i := by
  have hq : (j 1 : Fin e) = (i 1 : Fin e) := Fin.ext hi1.symm
  show _ = layerAt A0 A1 A2 A3 A4 A5 A6 A7 A8 z (i 0) (i 1)
  rw [← hq]
  exact layerAt_congr x0 x1 x2 A0 A1 A2 x3 x4 A3 A4 x5 x6 x7 x8 A5 A6 A7 A8 z (j 0) (i 0) (j 1)
    (fun c => h0 (j 0) c (i 0) hi0) (fun c => h1 (j 0) c (i 0) hi0) (h2 (j 0) (i 0) hi0) h3 h4 h5 h6 h7 h8

end Cert.SageNorm

end
-- ==== Proof.KernelLayer0.lean ====
/-
  Launch 0 of the kernel: the array its write-backs leave, as one function of the arrays it is entered with.

  The launch walks twenty blocks of 5000 rows. At block `t` the body computes the layer's entries for that block's rows from
  the same rows of the neighbour sums, the node features and the reciprocal counts, and from the whole weight and parameter
  arrays; the block is written back to rows 5000·t … 5000·t + 4999 of the output. The blocks tile the output, so after the
  launch the output array is the layer of the whole input arrays, whatever those hold when the launch is entered.
-/
import proofs.«179291_j9483287789910_1_alg».proof.Proof.Gen.KernelIdeal.Frame
import proofs.«179291_j9483287789910_1_alg».proof.Proof.LibSageNormBody

set_option maxRecDepth 16384

noncomputable section

namespace Cert.KernelIdeal.Layer0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SageNorm

variable (V : (c : Dev nD) → (b : Ref sig .tc) → Buf (Elt Ideal) ((c : Thread nD τ).loc b))

theorem hz : (![0, 0] : Fin 2 → Nat) = fun _ => 0 := funext fun a => by fin_cases a <;> rfl

/-- The ramp's floor: the word for zero, as the body's scalar constant. -/
abbrev floor0 : Ideal .f32 := Scalar.ofBits (F := Ideal) .f32 0x00000000#32

/-- The body's stored value at `(p, q)` is the layer's entry of the loaded blocks. -/
theorem pay_apply (v0 : FVec Ideal S5000x160 .f32) (v2 : FVec Ideal S5000x1 .f32) (v7 : FVec Ideal S5000x160 .f32)
    (v9 v11 : FVec Ideal S160x128 .f32) (v16 v20 v24 v28 : FVec Ideal S1x128 .f32) (p : Fin 5000) (q : Fin 128) :
    k0_pay1 (F := Ideal) v0 v2 v7 v9 v11 v16 v20 v24 v28 (ix2 p q)
      = layerAt v0 v7 v2 v9 v11 v16 v24 v28 v20 floor0 p q :=
  tree_apply (n := 5000) (d := 160) (e := 128) v0 v7 v2 v9 v11 v16 v20 v24 v28 shapeCasts_S5000x160_S5000x160 shapeCasts_S5000x1_S5000x1
    broadcasts_S5000x1_S5000x160 bitsLt_bf16_f32 dot_S5000x160_S160x128_S5000x128_1_0_0_1_n_n rfl shapeCasts_S1x128_S1x128
    broadcasts_S1x128_S5000x128 floor0 p q

/-- What the output array holds after the launch: the layer of the arrays the launch is entered with. -/
def G (c : Dev nD) : S100000x128.Idx → Elt Ideal .f32 :=
  layer (V c main_v22) (V c main_arg0) (V c main_v12) (V c main_arg2) (V c main_arg3) (V c main_v27) (V c main_v28) (V c main_v29) (V c main_v30) floor0

/-- The printed index maps over the grid: the three row-indexed inputs move with the output's block row, every other input
    stays at block zero, and no window moves along the columns. -/
theorem idx_facts : ∀ t : Fin cfg0.N, win0_0.index t (0 : Fin 2) = win0_9.index t (0 : Fin 2)
    ∧ win0_0.index t (1 : Fin 2) = 0
    ∧ win0_1.index t (0 : Fin 2) = win0_9.index t (0 : Fin 2)
    ∧ win0_1.index t (1 : Fin 2) = 0
    ∧ win0_2.index t (0 : Fin 2) = win0_9.index t (0 : Fin 2)
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (1 : Fin 2) = 0 :=
  (by decide +kernel : ∀ t : Fin grid0.N, _)

/-- Every one of the twenty block rows is some point's. -/
theorem idx_onto : ∀ q0 : Fin 20, ∃ t : Fin cfg0.N, win0_9.index t = ![q0.val, 0] :=
  (by decide +kernel : ∀ q0 : Fin 20, ∃ t : Fin grid0.N, win0_9.index t = ![q0.val, 0])

/-- Window 0's block at point `t` is the rows of its array from the output block's first row on. -/
theorem blk_0 (c : Dev nD) (t : Fin cfg0.N) (r : Fin 5000) (cc : Fin 160) (p : Fin 100000)
    (hp : p.val = win0_9.index t (0 : Fin 2) * 5000 + r.val) :
    iblk0 (F := Ideal) V c 0 t (ix2 r cc) = V c main_v22 (ix2 p cc) := by
  obtain ⟨e0a, e0b, e1a, e1b, e2a, e2b, e3a, e3b, e4a, e4b, e5a, e5b, e6a, e6b, e7a, e7b, e8a, e8b, e9b⟩ := idx_facts t
  show V c main_v22 (((cfg0.win 0).blk t).view.emb (ix2 r cc)) = V c main_v22 (ix2 p cc)
  refine congrArg (V c main_v22) ?_
  funext a; apply Fin.ext
  match a with
  | ⟨0, _⟩ => show win0_0.index t (0 : Fin 2) * 5000 + 1 * r.val = p.val; omega
  | ⟨1, _⟩ => show win0_0.index t (1 : Fin 2) * 160 + 1 * cc.val = cc.val; omega

/-- Window 1's block at point `t` is the rows of its array from the output block's first row on. -/
theorem blk_1 (c : Dev nD) (t : Fin cfg0.N) (r : Fin 5000) (cc : Fin 160) (p : Fin 100000)
    (hp : p.val = win0_9.index t (0 : Fin 2) * 5000 + r.val) :
    iblk0 (F := Ideal) V c 1 t (ix2 r cc) = V c main_arg0 (ix2 p cc) := by
  obtain ⟨e0a, e0b, e1a, e1b, e2a, e2b, e3a, e3b, e4a, e4b, e5a, e5b, e6a, e6b, e7a, e7b, e8a, e8b, e9b⟩ := idx_facts t
  show V c main_arg0 (((cfg0.win 1).blk t).view.emb (ix2 r cc)) = V c main_arg0 (ix2 p cc)
  refine congrArg (V c main_arg0) ?_
  funext a; apply Fin.ext
  match a with
  | ⟨0, _⟩ => show win0_1.index t (0 : Fin 2) * 5000 + 1 * r.val = p.val; omega
  | ⟨1, _⟩ => show win0_1.index t (1 : Fin 2) * 160 + 1 * cc.val = cc.val; omega

/-- Window 2's block at point `t` is the rows of the reciprocal-count column from the output block's first row on. -/
theorem blk_2 (c : Dev nD) (t : Fin cfg0.N) (r : Fin 5000) (p : Fin 100000)
    (hp : p.val = win0_9.index t (0 : Fin 2) * 5000 + r.val) :
    iblk0 (F := Ideal) V c 2 t (ix2 r (0 : Fin 1)) = V c main_v12 (ix2 p (0 : Fin 1)) := by
  obtain ⟨e0a, e0b, e1a, e1b, e2a, e2b, e3a, e3b, e4a, e4b, e5a, e5b, e6a, e6b, e7a, e7b, e8a, e8b, e9b⟩ := idx_facts t
  show V c main_v12 (((cfg0.win 2).blk t).view.emb (ix2 r (0 : Fin 1))) = V c main_v12 (ix2 p (0 : Fin 1))
  refine congrArg (V c main_v12) ?_
  funext a; apply Fin.ext
  match a with
  | ⟨0, _⟩ => show win0_2.index t (0 : Fin 2) * 5000 + 1 * r.val = p.val; omega
  | ⟨1, _⟩ => show win0_2.index t (1 : Fin 2) * 1 + 1 * 0 = 0; omega

/-- Window 3's block at any point is its whole array: its index map is constantly zero and its block is the array's size. -/
theorem blk_3 (c : Dev nD) (t : Fin cfg0.N) : iblk0 (F := Ideal) V c 3 t = V c main_arg2 := by
  obtain ⟨e0a, e0b, e1a, e1b, e2a, e2b, e3a, e3b, e4a, e4b, e5a, e5b, e6a, e6b, e7a, e7b, e8a, e8b, e9b⟩ := idx_facts t
  funext y
  show V c main_arg2 (((cfg0.win 3).blk t).view.emb y) = V c main_arg2 y
  refine congrArg (V c main_arg2) ?_
  funext a; apply Fin.ext
  match a with
  | ⟨0, _⟩ => show win0_3.index t (0 : Fin 2) * 160 + 1 * (y 0).val = (y 0).val; omega
  | ⟨1, _⟩ => show win0_3.index t (1 : Fin 2) * 128 + 1 * (y 1).val = (y 1).val; omega

/-- Window 4's block at any point is its whole array: its index map is constantly zero and its block is the array's size. -/
theorem blk_4 (c : Dev nD) (t : Fin cfg0.N) : iblk0 (F := Ideal) V c 4 t = V c main_arg3 := by
  obtain ⟨e0a, e0b, e1a, e1b, e2a, e2b, e3a, e3b, e4a, e4b, e5a, e5b, e6a, e6b, e7a, e7b, e8a, e8b, e9b⟩ := idx_facts t
  funext y
  show V c main_arg3 (((cfg0.win 4).blk t).view.emb y) = V c main_arg3 y
  refine congrArg (V c main_arg3) ?_
  funext a; apply Fin.ext
  match a with
  | ⟨0, _⟩ => show win0_4.index t (0 : Fin 2) * 160 + 1 * (y 0).val = (y 0).val; omega
  | ⟨1, _⟩ => show win0_4.index t (1 : Fin 2) * 128 + 1 * (y 1).val = (y 1).val; omega

/-- Window 5's block at any point is its whole array: its index map is constantly zero and its block is the array's size. -/
theorem blk_5 (c : Dev nD) (t : Fin cfg0.N) : iblk0 (F := Ideal) V c 5 t = V c main_v27 := by
  obtain ⟨e0a, e0b, e1a, e1b, e2a, e2b, e3a, e3b, e4a, e4b, e5a, e5b, e6a, e6b, e7a, e7b, e8a, e8b, e9b⟩ := idx_facts t
  funext y
  show V c main_v27 (((cfg0.win 5).blk t).view.emb y) = V c main_v27 y
  refine congrArg (V c main_v27) ?_
  funext a; apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Window 6's block at any point is its whole array: its index map is constantly zero and its block is the array's size. -/
theorem blk_6 (c : Dev nD) (t : Fin cfg0.N) : iblk0 (F := Ideal) V c 6 t = V c main_v28 := by
  obtain ⟨e0a, e0b, e1a, e1b, e2a, e2b, e3a, e3b, e4a, e4b, e5a, e5b, e6a, e6b, e7a, e7b, e8a, e8b, e9b⟩ := idx_facts t
  funext y
  show V c main_v28 (((cfg0.win 6).blk t).view.emb y) = V c main_v28 y
  refine congrArg (V c main_v28) ?_
  funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Window 7's block at any point is its whole array: its index map is constantly zero and its block is the array's size. -/
theorem blk_7 (c : Dev nD) (t : Fin cfg0.N) : iblk0 (F := Ideal) V c 7 t = V c main_v29 := by
  obtain ⟨e0a, e0b, e1a, e1b, e2a, e2b, e3a, e3b, e4a, e4b, e5a, e5b, e6a, e6b, e7a, e7b, e8a, e8b, e9b⟩ := idx_facts t
  funext y
  show V c main_v29 (((cfg0.win 7).blk t).view.emb y) = V c main_v29 y
  refine congrArg (V c main_v29) ?_
  funext a; apply Fin.ext
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- Window 8's block at any point is its whole array: its index map is constantly zero and its block is the array's size. -/
theorem blk_8 (c : Dev nD) (t : Fin cfg0.N) : iblk0 (F := Ideal) V c 8 t = V c main_v30 := by
  obtain ⟨e0a, e0b, e1a, e1b, e2a, e2b, e3a, e3b, e4a, e4b, e5a, e5b, e6a, e6b, e7a, e7b, e8a, e8b, e9b⟩ := idx_facts t
  funext y
  show V c main_v30 (((cfg0.win 8).blk t).view.emb y) = V c main_v30 y
  refine congrArg (V c main_v30) ?_
  funext a; apply Fin.ext
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- WHAT POINT `t` WRITES BACK is block `t` of the layer of the entry arrays. -/
theorem flushed_eq (c : Dev nD) (t : Fin cfg0.N) :
    (dat0 (F := Ideal) V c).flushed 9 t = ((cfg0.win 9).blk t).view.read (Elt Ideal) (G V c) := by
  show (cfg0.win 9).cut (grid0.coords t) ((dat0 (F := Ideal) V c).after 9 t) = _
  rw [after0_9]
  unfold out0_9
  rw [View.canon_unit_zero hz]
  simp only [View.ld_unit_zero (S := S5000x160) hz, View.ld_unit_zero (S := S5000x1) hz, View.ld_unit_zero (S := S160x128) hz,
    View.ld_unit_zero (S := S1x128) hz]
  funext j
  show k0_pay1 (F := Ideal) (iblk0 V c 0 t) (iblk0 V c 2 t) (iblk0 V c 1 t) (iblk0 V c 3 t) (iblk0 V c 4 t)
      (iblk0 V c 5 t) (iblk0 V c 8 t) (iblk0 V c 6 t) (iblk0 V c 7 t) j = G V c (((cfg0.win 9).blk t).view.emb j)
  refine (congrArg (k0_pay1 (F := Ideal) (iblk0 V c 0 t) (iblk0 V c 2 t) (iblk0 V c 1 t) (iblk0 V c 3 t) (iblk0 V c 4 t)
      (iblk0 V c 5 t) (iblk0 V c 8 t) (iblk0 V c 6 t) (iblk0 V c 7 t)) (eq_ix2 j)).trans ?_
  refine (pay_apply (iblk0 V c 0 t) (iblk0 V c 2 t) (iblk0 V c 1 t) (iblk0 V c 3 t) (iblk0 V c 4 t)
      (iblk0 V c 5 t) (iblk0 V c 8 t) (iblk0 V c 6 t) (iblk0 V c 7 t) (j 0) (j 1)).trans ?_
  exact layer_block (iblk0 V c 0 t) (iblk0 V c 1 t) (iblk0 V c 2 t) (V c main_v22) (V c main_arg0) (V c main_v12)
    (iblk0 V c 3 t) (iblk0 V c 4 t) (V c main_arg2) (V c main_arg3)
    (iblk0 V c 5 t) (iblk0 V c 6 t) (iblk0 V c 7 t) (iblk0 V c 8 t) (V c main_v27) (V c main_v28) (V c main_v29) (V c main_v30)
    floor0 j (((cfg0.win 9).blk t).view.emb j) (win0_9.index t (0 : Fin 2) * 5000)
    (show win0_9.index t (0 : Fin 2) * 5000 + 1 * (j 0).val = win0_9.index t (0 : Fin 2) * 5000 + (j 0).val by omega)
    (show win0_9.index t (1 : Fin 2) * 128 + 1 * (j 1).val = (j 1).val by
      have := (idx_facts t).2.2.2.2.2.2.2.2.2.2.2.2.2.2.2.2.2.2; omega)
    (fun r cc p hp => blk_0 V c t r cc p hp) (fun r cc p hp => blk_1 V c t r cc p hp) (fun r p hp => blk_2 V c t r p hp)
    (blk_3 V c t) (blk_4 V c t) (blk_5 V c t) (blk_6 V c t) (blk_7 V c t) (blk_8 V c t)

/-- An index of the output array is in point `t`'s block iff each coordinate is in the block's range on its axis. -/
theorem mem_blk (t : Fin cfg0.N) (i : S100000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v31).slice (win0_9.rect t)).set ↔ _
  rw [View.set_slice_whole, Rect.mem_set_unit]
  exact Iff.rfl

/-- The blocks tile the output: row `r` is in the block of the point whose block row is `r / 5000`. -/
theorem cover (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  obtain ⟨t, ht⟩ := idx_onto ⟨(i 0).val / 5000, by omega⟩
  have q0 : win0_9.index t (0 : Fin 2) = (i 0).val / 5000 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 128 ≤ (i 1).val ∧ (i 1).val < win0_9.index t (1 : Fin 2) * 128 + 128; omega

/-- THE OUTPUT ARRAY after the launch is the layer of the arrays the launch was entered with. -/
theorem final (c : Dev nD) : (dat0 (F := Ideal) V c).arrAt 9 cfg0.N = G V c :=
  (dat0 (F := Ideal) V c).arrAt_eq_of_cover 9 (G V c) (fun t _ => flushed_eq V c t) (cover)

end Cert.KernelIdeal.Layer0

end
-- ==== Proof.KernelLayer1.lean ====
/-
  Launch 1 of the kernel: the array its write-backs leave, as one function of the arrays it is entered with.

  The launch walks twenty blocks of 5000 rows. At block `t` the body computes the layer's entries for that block's rows from
  the same rows of the neighbour sums, the node features and the reciprocal counts, and from the whole weight and parameter
  arrays; the block is written back to rows 5000·t … 5000·t + 4999 of the output. The blocks tile the output, so after the
  launch the output array is the layer of the whole input arrays, whatever those hold when the launch is entered.
-/
import proofs.«179291_j9483287789910_1_alg».proof.Proof.Gen.KernelIdeal.Frame
import proofs.«179291_j9483287789910_1_alg».proof.Proof.LibSageNormBody

set_option maxRecDepth 16384

noncomputable section

namespace Cert.KernelIdeal.Layer1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SageNorm

variable (V : (c : Dev nD) → (b : Ref sig .tc) → Buf (Elt Ideal) ((c : Thread nD τ).loc b))

theorem hz : (![0, 0] : Fin 2 → Nat) = fun _ => 0 := funext fun a => by fin_cases a <;> rfl

/-- The ramp's floor: the word for zero, as the body's scalar constant. -/
abbrev floor0 : Ideal .f32 := Scalar.ofBits (F := Ideal) .f32 0x00000000#32

/-- The body's stored value at `(p, q)` is the layer's entry of the loaded blocks. -/
theorem pay_apply (v0 : FVec Ideal S5000x128 .f32) (v2 : FVec Ideal S5000x1 .f32) (v7 : FVec Ideal S5000x128 .f32)
    (v9 v11 : FVec Ideal S128x128 .f32) (v16 v20 v24 v28 : FVec Ideal S1x128 .f32) (p : Fin 5000) (q : Fin 128) :
    k1_pay1 (F := Ideal) v0 v2 v7 v9 v11 v16 v20 v24 v28 (ix2 p q)
      = layerAt v0 v7 v2 v9 v11 v16 v24 v28 v20 floor0 p q :=
  tree_apply_cast (n := 5000) (d := 128) (e := 128) v0 v7 v2 v9 v11 v16 v20 v24 v28 shapeCasts_S5000x128_S5000x128 shapeCasts_S5000x1_S5000x1
    broadcasts_S5000x1_S5000x128 bitsLt_bf16_f32 dot_S5000x128_S128x128_S5000x128_1_0_0_1_n_n rfl shapeCasts_S1x128_S1x128
    broadcasts_S1x128_S5000x128 floor0 p q

/-- What the output array holds after the launch: the layer of the arrays the launch is entered with. -/
def G (c : Dev nD) : S100000x128.Idx → Elt Ideal .f32 :=
  layer (V c main_v41) (V c main_v31) (V c main_v12) (V c main_arg9) (V c main_arg10) (V c main_v46) (V c main_v47) (V c main_v48) (V c main_v49) floor0

/-- The printed index maps over the grid: the three row-indexed inputs move with the output's block row, every other input
    stays at block zero, and no window moves along the columns. -/
theorem idx_facts : ∀ t : Fin cfg1.N, win1_0.index t (0 : Fin 2) = win1_9.index t (0 : Fin 2)
    ∧ win1_0.index t (1 : Fin 2) = 0
    ∧ win1_1.index t (0 : Fin 2) = win1_9.index t (0 : Fin 2)
    ∧ win1_1.index t (1 : Fin 2) = 0
    ∧ win1_2.index t (0 : Fin 2) = win1_9.index t (0 : Fin 2)
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (1 : Fin 2) = 0 :=
  (by decide +kernel : ∀ t : Fin grid1.N, _)

/-- Every one of the twenty block rows is some point's. -/
theorem idx_onto : ∀ q0 : Fin 20, ∃ t : Fin cfg1.N, win1_9.index t = ![q0.val, 0] :=
  (by decide +kernel : ∀ q0 : Fin 20, ∃ t : Fin grid1.N, win1_9.index t = ![q0.val, 0])

/-- Window 0's block at point `t` is the rows of its array from the output block's first row on. -/
theorem blk_0 (c : Dev nD) (t : Fin cfg1.N) (r : Fin 5000) (cc : Fin 128) (p : Fin 100000)
    (hp : p.val = win1_9.index t (0 : Fin 2) * 5000 + r.val) :
    iblk1 (F := Ideal) V c 0 t (ix2 r cc) = V c main_v41 (ix2 p cc) := by
  obtain ⟨e0a, e0b, e1a, e1b, e2a, e2b, e3a, e3b, e4a, e4b, e5a, e5b, e6a, e6b, e7a, e7b, e8a, e8b, e9b⟩ := idx_facts t
  show V c main_v41 (((cfg1.win 0).blk t).view.emb (ix2 r cc)) = V c main_v41 (ix2 p cc)
  refine congrArg (V c main_v41) ?_
  funext a; apply Fin.ext
  match a with
  | ⟨0, _⟩ => show win1_0.index t (0 : Fin 2) * 5000 + 1 * r.val = p.val; omega
  | ⟨1, _⟩ => show win1_0.index t (1 : Fin 2) * 128 + 1 * cc.val = cc.val; omega

/-- Window 1's block at point `t` is the rows of its array from the output block's first row on. -/
theorem blk_1 (c : Dev nD) (t : Fin cfg1.N) (r : Fin 5000) (cc : Fin 128) (p : Fin 100000)
    (hp : p.val = win1_9.index t (0 : Fin 2) * 5000 + r.val) :
    iblk1 (F := Ideal) V c 1 t (ix2 r cc) = V c main_v31 (ix2 p cc) := by
  obtain ⟨e0a, e0b, e1a, e1b, e2a, e2b, e3a, e3b, e4a, e4b, e5a, e5b, e6a, e6b, e7a, e7b, e8a, e8b, e9b⟩ := idx_facts t
  show V c main_v31 (((cfg1.win 1).blk t).view.emb (ix2 r cc)) = V c main_v31 (ix2 p cc)
  refine congrArg (V c main_v31) ?_
  funext a; apply Fin.ext
  match a with
  | ⟨0, _⟩ => show win1_1.index t (0 : Fin 2) * 5000 + 1 * r.val = p.val; omega
  | ⟨1, _⟩ => show win1_1.index t (1 : Fin 2) * 128 + 1 * cc.val = cc.val; omega

/-- Window 2's block at point `t` is the rows of the reciprocal-count column from the output block's first row on. -/
theorem blk_2 (c : Dev nD) (t : Fin cfg1.N) (r : Fin 5000) (p : Fin 100000)
    (hp : p.val = win1_9.index t (0 : Fin 2) * 5000 + r.val) :
    iblk1 (F := Ideal) V c 2 t (ix2 r (0 : Fin 1)) = V c main_v12 (ix2 p (0 : Fin 1)) := by
  obtain ⟨e0a, e0b, e1a, e1b, e2a, e2b, e3a, e3b, e4a, e4b, e5a, e5b, e6a, e6b, e7a, e7b, e8a, e8b, e9b⟩ := idx_facts t
  show V c main_v12 (((cfg1.win 2).blk t).view.emb (ix2 r (0 : Fin 1))) = V c main_v12 (ix2 p (0 : Fin 1))
  refine congrArg (V c main_v12) ?_
  funext a; apply Fin.ext
  match a with
  | ⟨0, _⟩ => show win1_2.index t (0 : Fin 2) * 5000 + 1 * r.val = p.val; omega
  | ⟨1, _⟩ => show win1_2.index t (1 : Fin 2) * 1 + 1 * 0 = 0; omega

/-- Window 3's block at any point is its whole array: its index map is constantly zero and its block is the array's size. -/
theorem blk_3 (c : Dev nD) (t : Fin cfg1.N) : iblk1 (F := Ideal) V c 3 t = V c main_arg9 := by
  obtain ⟨e0a, e0b, e1a, e1b, e2a, e2b, e3a, e3b, e4a, e4b, e5a, e5b, e6a, e6b, e7a, e7b, e8a, e8b, e9b⟩ := idx_facts t
  funext y
  show V c main_arg9 (((cfg1.win 3).blk t).view.emb y) = V c main_arg9 y
  refine congrArg (V c main_arg9) ?_
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- Window 4's block at any point is its whole array: its index map is constantly zero and its block is the array's size. -/
theorem blk_4 (c : Dev nD) (t : Fin cfg1.N) : iblk1 (F := Ideal) V c 4 t = V c main_arg10 := by
  obtain ⟨e0a, e0b, e1a, e1b, e2a, e2b, e3a, e3b, e4a, e4b, e5a, e5b, e6a, e6b, e7a, e7b, e8a, e8b, e9b⟩ := idx_facts t
  funext y
  show V c main_arg10 (((cfg1.win 4).blk t).view.emb y) = V c main_arg10 y
  refine congrArg (V c main_arg10) ?_
  funext a; apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- Window 5's block at any point is its whole array: its index map is constantly zero and its block is the array's size. -/
theorem blk_5 (c : Dev nD) (t : Fin cfg1.N) : iblk1 (F := Ideal) V c 5 t = V c main_v46 := by
  obtain ⟨e0a, e0b, e1a, e1b, e2a, e2b, e3a, e3b, e4a, e4b, e5a, e5b, e6a, e6b, e7a, e7b, e8a, e8b, e9b⟩ := idx_facts t
  funext y
  show V c main_v46 (((cfg1.win 5).blk t).view.emb y) = V c main_v46 y
  refine congrArg (V c main_v46) ?_
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Window 6's block at any point is its whole array: its index map is constantly zero and its block is the array's size. -/
theorem blk_6 (c : Dev nD) (t : Fin cfg1.N) : iblk1 (F := Ideal) V c 6 t = V c main_v47 := by
  obtain ⟨e0a, e0b, e1a, e1b, e2a, e2b, e3a, e3b, e4a, e4b, e5a, e5b, e6a, e6b, e7a, e7b, e8a, e8b, e9b⟩ := idx_facts t
  funext y
  show V c main_v47 (((cfg1.win 6).blk t).view.emb y) = V c main_v47 y
  refine congrArg (V c main_v47) ?_
  funext a; apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- Window 7's block at any point is its whole array: its index map is constantly zero and its block is the array's size. -/
theorem blk_7 (c : Dev nD) (t : Fin cfg1.N) : iblk1 (F := Ideal) V c 7 t = V c main_v48 := by
  obtain ⟨e0a, e0b, e1a, e1b, e2a, e2b, e3a, e3b, e4a, e4b, e5a, e5b, e6a, e6b, e7a, e7b, e8a, e8b, e9b⟩ := idx_facts t
  funext y
  show V c main_v48 (((cfg1.win 7).blk t).view.emb y) = V c main_v48 y
  refine congrArg (V c main_v48) ?_
  funext a; apply Fin.ext
  match a with
  | ⟨0, _⟩ => show win1_7.index t (0 : Fin 2) * 1 + 1 * (y 0).val = (y 0).val; omega
  | ⟨1, _⟩ => show win1_7.index t (1 : Fin 2) * 128 + 1 * (y 1).val = (y 1).val; omega

/-- Window 8's block at any point is its whole array: its index map is constantly zero and its block is the array's size. -/
theorem blk_8 (c : Dev nD) (t : Fin cfg1.N) : iblk1 (F := Ideal) V c 8 t = V c main_v49 := by
  obtain ⟨e0a, e0b, e1a, e1b, e2a, e2b, e3a, e3b, e4a, e4b, e5a, e5b, e6a, e6b, e7a, e7b, e8a, e8b, e9b⟩ := idx_facts t
  funext y
  show V c main_v49 (((cfg1.win 8).blk t).view.emb y) = V c main_v49 y
  refine congrArg (V c main_v49) ?_
  funext a; apply Fin.ext
  match a with
  | ⟨0, _⟩ => show win1_8.index t (0 : Fin 2) * 1 + 1 * (y 0).val = (y 0).val; omega
  | ⟨1, _⟩ => show win1_8.index t (1 : Fin 2) * 128 + 1 * (y 1).val = (y 1).val; omega

/-- WHAT POINT `t` WRITES BACK is block `t` of the layer of the entry arrays. -/
theorem flushed_eq (c : Dev nD) (t : Fin cfg1.N) :
    (dat1 (F := Ideal) V c).flushed 9 t = ((cfg1.win 9).blk t).view.read (Elt Ideal) (G V c) := by
  show (cfg1.win 9).cut (grid1.coords t) ((dat1 (F := Ideal) V c).after 9 t) = _
  rw [after1_9]
  unfold out1_9
  rw [View.canon_unit_zero hz]
  simp only [View.ld_unit_zero (S := S5000x128) hz, View.ld_unit_zero (S := S5000x1) hz, View.ld_unit_zero (S := S128x128) hz,
    View.ld_unit_zero (S := S1x128) hz]
  funext j
  show k1_pay1 (F := Ideal) (iblk1 V c 0 t) (iblk1 V c 2 t) (iblk1 V c 1 t) (iblk1 V c 3 t) (iblk1 V c 4 t)
      (iblk1 V c 5 t) (iblk1 V c 8 t) (iblk1 V c 6 t) (iblk1 V c 7 t) j = G V c (((cfg1.win 9).blk t).view.emb j)
  refine (congrArg (k1_pay1 (F := Ideal) (iblk1 V c 0 t) (iblk1 V c 2 t) (iblk1 V c 1 t) (iblk1 V c 3 t) (iblk1 V c 4 t)
      (iblk1 V c 5 t) (iblk1 V c 8 t) (iblk1 V c 6 t) (iblk1 V c 7 t)) (eq_ix2 j)).trans ?_
  refine (pay_apply (iblk1 V c 0 t) (iblk1 V c 2 t) (iblk1 V c 1 t) (iblk1 V c 3 t) (iblk1 V c 4 t)
      (iblk1 V c 5 t) (iblk1 V c 8 t) (iblk1 V c 6 t) (iblk1 V c 7 t) (j 0) (j 1)).trans ?_
  exact layer_block (iblk1 V c 0 t) (iblk1 V c 1 t) (iblk1 V c 2 t) (V c main_v41) (V c main_v31) (V c main_v12)
    (iblk1 V c 3 t) (iblk1 V c 4 t) (V c main_arg9) (V c main_arg10)
    (iblk1 V c 5 t) (iblk1 V c 6 t) (iblk1 V c 7 t) (iblk1 V c 8 t) (V c main_v46) (V c main_v47) (V c main_v48) (V c main_v49)
    floor0 j (((cfg1.win 9).blk t).view.emb j) (win1_9.index t (0 : Fin 2) * 5000)
    (show win1_9.index t (0 : Fin 2) * 5000 + 1 * (j 0).val = win1_9.index t (0 : Fin 2) * 5000 + (j 0).val by omega)
    (show win1_9.index t (1 : Fin 2) * 128 + 1 * (j 1).val = (j 1).val by
      have := (idx_facts t).2.2.2.2.2.2.2.2.2.2.2.2.2.2.2.2.2.2; omega)
    (fun r cc p hp => blk_0 V c t r cc p hp) (fun r cc p hp => blk_1 V c t r cc p hp) (fun r p hp => blk_2 V c t r p hp)
    (blk_3 V c t) (blk_4 V c t) (blk_5 V c t) (blk_6 V c t) (blk_7 V c t) (blk_8 V c t)

/-- An index of the output array is in point `t`'s block iff each coordinate is in the block's range on its axis. -/
theorem mem_blk (t : Fin cfg1.N) (i : S100000x128.Idx) :
    i ∈ ((cfg1.win 9).blk t).view.set ↔ ∀ a : Fin 2, win1_9.index t a * S5000x128.size a ≤ (i a).val ∧ (i a).val < win1_9.index t a * S5000x128.size a + S5000x128.size a := by
  show i ∈ ((View.whole main_v50).slice (win1_9.rect t)).set ↔ _
  rw [View.set_slice_whole, Rect.mem_set_unit]
  exact Iff.rfl

/-- The blocks tile the output: row `r` is in the block of the point whose block row is `r / 5000`. -/
theorem cover (i : S100000x128.Idx) :
    ∃ t : Fin cfg1.N, (cfg1.win 9).flush t = true ∧ i ∈ ((cfg1.win 9).blk t).view.set := by
  have hi0 : (i 0).val < 100000 := (i 0).isLt
  have hi1 : (i 1).val < 128 := (i 1).isLt
  obtain ⟨t, ht⟩ := idx_onto ⟨(i 0).val / 5000, by omega⟩
  have q0 : win1_9.index t (0 : Fin 2) = (i 0).val / 5000 := congrFun ht 0
  have q1 : win1_9.index t (1 : Fin 2) = 0 := congrFun ht 1
  refine ⟨t, flush1_9 t, ?_⟩
  rw [mem_blk]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 128 ≤ (i 1).val ∧ (i 1).val < win1_9.index t (1 : Fin 2) * 128 + 128; omega

/-- THE OUTPUT ARRAY after the launch is the layer of the arrays the launch was entered with. -/
theorem final (c : Dev nD) : (dat1 (F := Ideal) V c).arrAt 9 cfg1.N = G V c :=
  (dat1 (F := Ideal) V c).arrAt_eq_of_cover 9 (G V c) (fun t _ => flushed_eq V c t) (cover)

end Cert.KernelIdeal.Layer1

end
-- ==== Proof.KernelLayer2.lean ====
/-
  Launch 2 of the kernel: the array its write-backs leave, as one function of the arrays it is entered with.

  The launch walks twenty blocks of 5000 rows. At block `t` the body computes the layer's entries for that block's rows from
  the same rows of the neighbour sums, the node features and the reciprocal counts, and from the whole weight and parameter
  arrays; the block is written back to rows 5000·t … 5000·t + 4999 of the output. The blocks tile the output, so after the
  launch the output array is the layer of the whole input arrays, whatever those hold when the launch is entered.
-/
import proofs.«179291_j9483287789910_1_alg».proof.Proof.Gen.KernelIdeal.Frame
import proofs.«179291_j9483287789910_1_alg».proof.Proof.LibSageNormBody

set_option maxRecDepth 16384

noncomputable section

namespace Cert.KernelIdeal.Layer2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SageNorm

variable (V : (c : Dev nD) → (b : Ref sig .tc) → Buf (Elt Ideal) ((c : Thread nD τ).loc b))

theorem hz : (![0, 0] : Fin 2 → Nat) = fun _ => 0 := funext fun a => by fin_cases a <;> rfl

/-- The ramp's floor: the word for zero, as the body's scalar constant. -/
abbrev floor0 : Ideal .f32 := Scalar.ofBits (F := Ideal) .f32 0x00000000#32

/-- The body's stored value at `(p, q)` is the layer's entry of the loaded blocks. -/
theorem pay_apply (v0 : FVec Ideal S5000x128 .f32) (v2 : FVec Ideal S5000x1 .f32) (v7 : FVec Ideal S5000x128 .f32)
    (v9 v11 : FVec Ideal S128x128 .f32) (v16 v20 v24 v28 : FVec Ideal S1x128 .f32) (p : Fin 5000) (q : Fin 128) :
    k2_pay1 (F := Ideal) v0 v2 v7 v9 v11 v16 v20 v24 v28 (ix2 p q)
      = layerAt v0 v7 v2 v9 v11 v16 v24 v28 v20 floor0 p q :=
  tree_apply_cast (n := 5000) (d := 128) (e := 128) v0 v7 v2 v9 v11 v16 v20 v24 v28 shapeCasts_S5000x128_S5000x128 shapeCasts_S5000x1_S5000x1
    broadcasts_S5000x1_S5000x128 bitsLt_bf16_f32 dot_S5000x128_S128x128_S5000x128_1_0_0_1_n_n rfl shapeCasts_S1x128_S1x128
    broadcasts_S1x128_S5000x128 floor0 p q

/-- What the output array holds after the launch: the layer of the arrays the launch is entered with. -/
def G (c : Dev nD) : S100000x128.Idx → Elt Ideal .f32 :=
  layer (V c main_v60) (V c main_v50) (V c main_v12) (V c main_arg16) (V c main_arg17) (V c main_v65) (V c main_v66) (V c main_v67) (V c main_v68) floor0

/-- The printed index maps over the grid: the three row-indexed inputs move with the output's block row, every other input
    stays at block zero, and no window moves along the columns. -/
theorem idx_facts : ∀ t : Fin cfg2.N, win2_0.index t (0 : Fin 2) = win2_9.index t (0 : Fin 2)
    ∧ win2_0.index t (1 : Fin 2) = 0
    ∧ win2_1.index t (0 : Fin 2) = win2_9.index t (0 : Fin 2)
    ∧ win2_1.index t (1 : Fin 2) = 0
    ∧ win2_2.index t (0 : Fin 2) = win2_9.index t (0 : Fin 2)
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (1 : Fin 2) = 0 :=
  (by decide +kernel : ∀ t : Fin grid2.N, _)

/-- Every one of the twenty block rows is some point's. -/
theorem idx_onto : ∀ q0 : Fin 20, ∃ t : Fin cfg2.N, win2_9.index t = ![q0.val, 0] :=
  (by decide +kernel : ∀ q0 : Fin 20, ∃ t : Fin grid2.N, win2_9.index t = ![q0.val, 0])

/-- Window 0's block at point `t` is the rows of its array from the output block's first row on. -/
theorem blk_0 (c : Dev nD) (t : Fin cfg2.N) (r : Fin 5000) (cc : Fin 128) (p : Fin 100000)
    (hp : p.val = win2_9.index t (0 : Fin 2) * 5000 + r.val) :
    iblk2 (F := Ideal) V c 0 t (ix2 r cc) = V c main_v60 (ix2 p cc) := by
  obtain ⟨e0a, e0b, e1a, e1b, e2a, e2b, e3a, e3b, e4a, e4b, e5a, e5b, e6a, e6b, e7a, e7b, e8a, e8b, e9b⟩ := idx_facts t
  show V c main_v60 (((cfg2.win 0).blk t).view.emb (ix2 r cc)) = V c main_v60 (ix2 p cc)
  refine congrArg (V c main_v60) ?_
  funext a; apply Fin.ext
  match a with
  | ⟨0, _⟩ => show win2_0.index t (0 : Fin 2) * 5000 + 1 * r.val = p.val; omega
  | ⟨1, _⟩ => show win2_0.index t (1 : Fin 2) * 128 + 1 * cc.val = cc.val; omega

/-- Window 1's block at point `t` is the rows of its array from the output block's first row on. -/
theorem blk_1 (c : Dev nD) (t : Fin cfg2.N) (r : Fin 5000) (cc : Fin 128) (p : Fin 100000)
    (hp : p.val = win2_9.index t (0 : Fin 2) * 5000 + r.val) :
    iblk2 (F := Ideal) V c 1 t (ix2 r cc) = V c main_v50 (ix2 p cc) := by
  obtain ⟨e0a, e0b, e1a, e1b, e2a, e2b, e3a, e3b, e4a, e4b, e5a, e5b, e6a, e6b, e7a, e7b, e8a, e8b, e9b⟩ := idx_facts t
  show V c main_v50 (((cfg2.win 1).blk t).view.emb (ix2 r cc)) = V c main_v50 (ix2 p cc)
  refine congrArg (V c main_v50) ?_
  funext a; apply Fin.ext
  match a with
  | ⟨0, _⟩ => show win2_1.index t (0 : Fin 2) * 5000 + 1 * r.val = p.val; omega
  | ⟨1, _⟩ => show win2_1.index t (1 : Fin 2) * 128 + 1 * cc.val = cc.val; omega

/-- Window 2's block at point `t` is the rows of the reciprocal-count column from the output block's first row on. -/
theorem blk_2 (c : Dev nD) (t : Fin cfg2.N) (r : Fin 5000) (p : Fin 100000)
    (hp : p.val = win2_9.index t (0 : Fin 2) * 5000 + r.val) :
    iblk2 (F := Ideal) V c 2 t (ix2 r (0 : Fin 1)) = V c main_v12 (ix2 p (0 : Fin 1)) := by
  obtain ⟨e0a, e0b, e1a, e1b, e2a, e2b, e3a, e3b, e4a, e4b, e5a, e5b, e6a, e6b, e7a, e7b, e8a, e8b, e9b⟩ := idx_facts t
  show V c main_v12 (((cfg2.win 2).blk t).view.emb (ix2 r (0 : Fin 1))) = V c main_v12 (ix2 p (0 : Fin 1))
  refine congrArg (V c main_v12) ?_
  funext a; apply Fin.ext
  match a with
  | ⟨0, _⟩ => show win2_2.index t (0 : Fin 2) * 5000 + 1 * r.val = p.val; omega
  | ⟨1, _⟩ => show win2_2.index t (1 : Fin 2) * 1 + 1 * 0 = 0; omega

/-- Window 3's block at any point is its whole array: its index map is constantly zero and its block is the array's size. -/
theorem blk_3 (c : Dev nD) (t : Fin cfg2.N) : iblk2 (F := Ideal) V c 3 t = V c main_arg16 := by
  obtain ⟨e0a, e0b, e1a, e1b, e2a, e2b, e3a, e3b, e4a, e4b, e5a, e5b, e6a, e6b, e7a, e7b, e8a, e8b, e9b⟩ := idx_facts t
  funext y
  show V c main_arg16 (((cfg2.win 3).blk t).view.emb y) = V c main_arg16 y
  refine congrArg (V c main_arg16) ?_
  funext a; apply Fin.ext
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- Window 4's block at any point is its whole array: its index map is constantly zero and its block is the array's size. -/
theorem blk_4 (c : Dev nD) (t : Fin cfg2.N) : iblk2 (F := Ideal) V c 4 t = V c main_arg17 := by
  obtain ⟨e0a, e0b, e1a, e1b, e2a, e2b, e3a, e3b, e4a, e4b, e5a, e5b, e6a, e6b, e7a, e7b, e8a, e8b, e9b⟩ := idx_facts t
  funext y
  show V c main_arg17 (((cfg2.win 4).blk t).view.emb y) = V c main_arg17 y
  refine congrArg (V c main_arg17) ?_
  funext a; apply Fin.ext
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- Window 5's block at any point is its whole array: its index map is constantly zero and its block is the array's size. -/
theorem blk_5 (c : Dev nD) (t : Fin cfg2.N) : iblk2 (F := Ideal) V c 5 t = V c main_v65 := by
  obtain ⟨e0a, e0b, e1a, e1b, e2a, e2b, e3a, e3b, e4a, e4b, e5a, e5b, e6a, e6b, e7a, e7b, e8a, e8b, e9b⟩ := idx_facts t
  funext y
  show V c main_v65 (((cfg2.win 5).blk t).view.emb y) = V c main_v65 y
  refine congrArg (V c main_v65) ?_
  funext a; apply Fin.ext
  match a with
  | ⟨0, _⟩ => show win2_5.index t (0 : Fin 2) * 1 + 1 * (y 0).val = (y 0).val; omega
  | ⟨1, _⟩ => show win2_5.index t (1 : Fin 2) * 128 + 1 * (y 1).val = (y 1).val; omega

/-- Window 6's block at any point is its whole array: its index map is constantly zero and its block is the array's size. -/
theorem blk_6 (c : Dev nD) (t : Fin cfg2.N) : iblk2 (F := Ideal) V c 6 t = V c main_v66 := by
  obtain ⟨e0a, e0b, e1a, e1b, e2a, e2b, e3a, e3b, e4a, e4b, e5a, e5b, e6a, e6b, e7a, e7b, e8a, e8b, e9b⟩ := idx_facts t
  funext y
  show V c main_v66 (((cfg2.win 6).blk t).view.emb y) = V c main_v66 y
  refine congrArg (V c main_v66) ?_
  funext a; apply Fin.ext
  match a with
  | ⟨0, _⟩ => show win2_6.index t (0 : Fin 2) * 1 + 1 * (y 0).val = (y 0).val; omega
  | ⟨1, _⟩ => show win2_6.index t (1 : Fin 2) * 128 + 1 * (y 1).val = (y 1).val; omega

/-- Window 7's block at any point is its whole array: its index map is constantly zero and its block is the array's size. -/
theorem blk_7 (c : Dev nD) (t : Fin cfg2.N) : iblk2 (F := Ideal) V c 7 t = V c main_v67 := by
  obtain ⟨e0a, e0b, e1a, e1b, e2a, e2b, e3a, e3b, e4a, e4b, e5a, e5b, e6a, e6b, e7a, e7b, e8a, e8b, e9b⟩ := idx_facts t
  funext y
  show V c main_v67 (((cfg2.win 7).blk t).view.emb y) = V c main_v67 y
  refine congrArg (V c main_v67) ?_
  funext a; apply Fin.ext
  match a with
  | ⟨0, _⟩ => show win2_7.index t (0 : Fin 2) * 1 + 1 * (y 0).val = (y 0).val; omega
  | ⟨1, _⟩ => show win2_7.index t (1 : Fin 2) * 128 + 1 * (y 1).val = (y 1).val; omega

/-- Window 8's block at any point is its whole array: its index map is constantly zero and its block is the array's size. -/
theorem blk_8 (c : Dev nD) (t : Fin cfg2.N) : iblk2 (F := Ideal) V c 8 t = V c main_v68 := by
  obtain ⟨e0a, e0b, e1a, e1b, e2a, e2b, e3a, e3b, e4a, e4b, e5a, e5b, e6a, e6b, e7a, e7b, e8a, e8b, e9b⟩ := idx_facts t
  funext y
  show V c main_v68 (((cfg2.win 8).blk t).view.emb y) = V c main_v68 y
  refine congrArg (V c main_v68) ?_
  funext a; apply Fin.ext
  match a with
  | ⟨0, _⟩ => show win2_8.index t (0 : Fin 2) * 1 + 1 * (y 0).val = (y 0).val; omega
  | ⟨1, _⟩ => show win2_8.index t (1 : Fin 2) * 128 + 1 * (y 1).val = (y 1).val; omega

/-- WHAT POINT `t` WRITES BACK is block `t` of the layer of the entry arrays. -/
theorem flushed_eq (c : Dev nD) (t : Fin cfg2.N) :
    (dat2 (F := Ideal) V c).flushed 9 t = ((cfg2.win 9).blk t).view.read (Elt Ideal) (G V c) := by
  show (cfg2.win 9).cut (grid2.coords t) ((dat2 (F := Ideal) V c).after 9 t) = _
  rw [after2_9]
  unfold out2_9
  rw [View.canon_unit_zero hz]
  simp only [View.ld_unit_zero (S := S5000x128) hz, View.ld_unit_zero (S := S5000x1) hz, View.ld_unit_zero (S := S128x128) hz,
    View.ld_unit_zero (S := S1x128) hz]
  funext j
  show k2_pay1 (F := Ideal) (iblk2 V c 0 t) (iblk2 V c 2 t) (iblk2 V c 1 t) (iblk2 V c 3 t) (iblk2 V c 4 t)
      (iblk2 V c 5 t) (iblk2 V c 8 t) (iblk2 V c 6 t) (iblk2 V c 7 t) j = G V c (((cfg2.win 9).blk t).view.emb j)
  refine (congrArg (k2_pay1 (F := Ideal) (iblk2 V c 0 t) (iblk2 V c 2 t) (iblk2 V c 1 t) (iblk2 V c 3 t) (iblk2 V c 4 t)
      (iblk2 V c 5 t) (iblk2 V c 8 t) (iblk2 V c 6 t) (iblk2 V c 7 t)) (eq_ix2 j)).trans ?_
  refine (pay_apply (iblk2 V c 0 t) (iblk2 V c 2 t) (iblk2 V c 1 t) (iblk2 V c 3 t) (iblk2 V c 4 t)
      (iblk2 V c 5 t) (iblk2 V c 8 t) (iblk2 V c 6 t) (iblk2 V c 7 t) (j 0) (j 1)).trans ?_
  exact layer_block (iblk2 V c 0 t) (iblk2 V c 1 t) (iblk2 V c 2 t) (V c main_v60) (V c main_v50) (V c main_v12)
    (iblk2 V c 3 t) (iblk2 V c 4 t) (V c main_arg16) (V c main_arg17)
    (iblk2 V c 5 t) (iblk2 V c 6 t) (iblk2 V c 7 t) (iblk2 V c 8 t) (V c main_v65) (V c main_v66) (V c main_v67) (V c main_v68)
    floor0 j (((cfg2.win 9).blk t).view.emb j) (win2_9.index t (0 : Fin 2) * 5000)
    (show win2_9.index t (0 : Fin 2) * 5000 + 1 * (j 0).val = win2_9.index t (0 : Fin 2) * 5000 + (j 0).val by omega)
    (show win2_9.index t (1 : Fin 2) * 128 + 1 * (j 1).val = (j 1).val by
      have := (idx_facts t).2.2.2.2.2.2.2.2.2.2.2.2.2.2.2.2.2.2; omega)
    (fun r cc p hp => blk_0 V c t r cc p hp) (fun r cc p hp => blk_1 V c t r cc p hp) (fun r p hp => blk_2 V c t r p hp)
    (blk_3 V c t) (blk_4 V c t) (blk_5 V c t) (blk_6 V c t) (blk_7 V c t) (blk_8 V c t)

/-- An index of the output array is in point `t`'s block iff each coordinate is in the block's range on its axis. -/
theorem mem_blk (t : Fin cfg2.N) (i : S100000x128.Idx) :
    i ∈ ((cfg2.win 9).blk t).view.set ↔ ∀ a : Fin 2, win2_9.index t a * S5000x128.size a ≤ (i a).val ∧ (i a).val < win2_9.index t a * S5000x128.size a + S5000x128.size a := by
  show i ∈ ((View.whole main_v69).slice (win2_9.rect t)).set ↔ _
  rw [View.set_slice_whole, Rect.mem_set_unit]
  exact Iff.rfl

/-- The blocks tile the output: row `r` is in the block of the point whose block row is `r / 5000`. -/
theorem cover (i : S100000x128.Idx) :
    ∃ t : Fin cfg2.N, (cfg2.win 9).flush t = true ∧ i ∈ ((cfg2.win 9).blk t).view.set := by
  have hi0 : (i 0).val < 100000 := (i 0).isLt
  have hi1 : (i 1).val < 128 := (i 1).isLt
  obtain ⟨t, ht⟩ := idx_onto ⟨(i 0).val / 5000, by omega⟩
  have q0 : win2_9.index t (0 : Fin 2) = (i 0).val / 5000 := congrFun ht 0
  have q1 : win2_9.index t (1 : Fin 2) = 0 := congrFun ht 1
  refine ⟨t, flush2_9 t, ?_⟩
  rw [mem_blk]
  intro a
  match a with
  | ⟨0, _⟩ => show win2_9.index t (0 : Fin 2) * 5000 ≤ (i 0).val ∧ (i 0).val < win2_9.index t (0 : Fin 2) * 5000 + 5000; omega
  | ⟨1, _⟩ => show win2_9.index t (1 : Fin 2) * 128 ≤ (i 1).val ∧ (i 1).val < win2_9.index t (1 : Fin 2) * 128 + 128; omega

/-- THE OUTPUT ARRAY after the launch is the layer of the arrays the launch was entered with. -/
theorem final (c : Dev nD) : (dat2 (F := Ideal) V c).arrAt 9 cfg2.N = G V c :=
  (dat2 (F := Ideal) V c).arrAt_eq_of_cover 9 (G V c) (fun t _ => flushed_eq V c t) (cover)

end Cert.KernelIdeal.Layer2

end
-- ==== Proof.KernelFold.lean ====
/-
  The idealized kernel's fold, evaluated: what each buffer the result depends on holds at each boundary of the program.

  Boundary 0 is the launch memory; an odd boundary follows a stretch of host operations and an even one a launch. A host
  operation's result is its function of the contents its operands had before it; a launch leaves in its output array the
  layer of the arrays it was entered with and changes no other array; every other buffer keeps what it held. Walking the
  seven boundaries gives each launch's operands as the named host computations of the launch arguments and of the layer
  before, and the result buffer as the last step applied to three layers.
-/
import proofs.«179291_j9483287789910_1_alg».proof.Proof.Gen.KernelIdeal.Frame
import proofs.«179291_j9483287789910_1_alg».proof.Proof.KernelTerms
import proofs.«179291_j9483287789910_1_alg».proof.Proof.KernelLayer0
import proofs.«179291_j9483287789910_1_alg».proof.Proof.KernelLayer1
import proofs.«179291_j9483287789910_1_alg».proof.Proof.KernelLayer2
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Idealize.ShloMosaic.Pipeline (Dat Cfg Window)
open Cert.KernelIdeal Cert.KernelIdeal.Gen Cert.KernelIdeal.Terms Cert.SageNorm

variable (m : (ℓ : Loc nD τ sig) → Buf (Elt Ideal) ℓ) (ρ : Dev nD → PrngReg) (c : Dev nD)

/-! ## The launch arguments, and the three layers and the result as functions of them -/

abbrev a0 : CF S100000x160 := m ((c : Thread nD τ).loc main_arg0)
abbrev a1 : CI S2x1600000 := m ((c : Thread nD τ).loc main_arg1)
abbrev a2 : CF S160x128 := m ((c : Thread nD τ).loc main_arg2)
abbrev a3 : CF S160x128 := m ((c : Thread nD τ).loc main_arg3)
abbrev a4 : CF S128 := m ((c : Thread nD τ).loc main_arg4)
abbrev a5 : CF S128 := m ((c : Thread nD τ).loc main_arg5)
abbrev a6 : CF S128 := m ((c : Thread nD τ).loc main_arg6)
abbrev a7 : CF S128 := m ((c : Thread nD τ).loc main_arg7)
abbrev a8 : CF S128 := m ((c : Thread nD τ).loc main_arg8)
abbrev a9 : CF S128x128 := m ((c : Thread nD τ).loc main_arg9)
abbrev a10 : CF S128x128 := m ((c : Thread nD τ).loc main_arg10)
abbrev a11 : CF S128 := m ((c : Thread nD τ).loc main_arg11)
abbrev a12 : CF S128 := m ((c : Thread nD τ).loc main_arg12)
abbrev a13 : CF S128 := m ((c : Thread nD τ).loc main_arg13)
abbrev a14 : CF S128 := m ((c : Thread nD τ).loc main_arg14)
abbrev a15 : CF S128 := m ((c : Thread nD τ).loc main_arg15)
abbrev a16 : CF S128x128 := m ((c : Thread nD τ).loc main_arg16)
abbrev a17 : CF S128x128 := m ((c : Thread nD τ).loc main_arg17)
abbrev a18 : CF S128 := m ((c : Thread nD τ).loc main_arg18)
abbrev a19 : CF S128 := m ((c : Thread nD τ).loc main_arg19)
abbrev a20 : CF S128 := m ((c : Thread nD τ).loc main_arg20)
abbrev a21 : CF S128 := m ((c : Thread nD τ).loc main_arg21)
abbrev a22 : CF S128 := m ((c : Thread nD τ).loc main_arg22)
abbrev a23 : CF S128x1 := m ((c : Thread nD τ).loc main_arg23)
abbrev a24 : CF S1 := m ((c : Thread nD τ).loc main_arg24)

/-- The first layer: from the node features. -/
def h1 : CF S100000x128 := layer160 (a0 m c) (a1 m c) (a2 m c) (a3 m c) (a4 m c) (a5 m c) (a6 m c) (a7 m c) (a8 m c)
/-- The second layer: from the first. -/
def h2 : CF S100000x128 := layer128 (h1 m c) (a1 m c) (a9 m c) (a10 m c) (a11 m c) (a12 m c) (a13 m c) (a14 m c) (a15 m c)
/-- The third layer: from the second. -/
def h3 : CF S100000x128 := layer128 (h2 m c) (a1 m c) (a16 m c) (a17 m c) (a18 m c) (a19 m c) (a20 m c) (a21 m c) (a22 m c)
/-- The program's result. -/
def out : CF S100000 := head (h3 m c) (a23 m c) (a24 m c)

/-! ## Boundary 1 -/

theorem s1_arg0 : W1 (F := Ideal) m ρ c (Proc.devRef .tc main_arg0) = a0 m c := by
  show StableHlo.after hostOps0 (W0 m ρ c) (Proc.devRef .tc main_arg0) = _
  after_results_simp <;> rfl
theorem s1_arg2 : W1 (F := Ideal) m ρ c (Proc.devRef .tc main_arg2) = a2 m c := by
  show StableHlo.after hostOps0 (W0 m ρ c) (Proc.devRef .tc main_arg2) = _
  after_results_simp <;> rfl
theorem s1_arg3 : W1 (F := Ideal) m ρ c (Proc.devRef .tc main_arg3) = a3 m c := by
  show StableHlo.after hostOps0 (W0 m ρ c) (Proc.devRef .tc main_arg3) = _
  after_results_simp <;> rfl
theorem s1_arg9 : W1 (F := Ideal) m ρ c (Proc.devRef .tc main_arg9) = a9 m c := by
  show StableHlo.after hostOps0 (W0 m ρ c) (Proc.devRef .tc main_arg9) = _
  after_results_simp <;> rfl
theorem s1_arg10 : W1 (F := Ideal) m ρ c (Proc.devRef .tc main_arg10) = a10 m c := by
  show StableHlo.after hostOps0 (W0 m ρ c) (Proc.devRef .tc main_arg10) = _
  after_results_simp <;> rfl
theorem s1_arg11 : W1 (F := Ideal) m ρ c (Proc.devRef .tc main_arg11) = a11 m c := by
  show StableHlo.after hostOps0 (W0 m ρ c) (Proc.devRef .tc main_arg11) = _
  after_results_simp <;> rfl
theorem s1_arg12 : W1 (F := Ideal) m ρ c (Proc.devRef .tc main_arg12) = a12 m c := by
  show StableHlo.after hostOps0 (W0 m ρ c) (Proc.devRef .tc main_arg12) = _
  after_results_simp <;> rfl
theorem s1_arg13 : W1 (F := Ideal) m ρ c (Proc.devRef .tc main_arg13) = a13 m c := by
  show StableHlo.after hostOps0 (W0 m ρ c) (Proc.devRef .tc main_arg13) = _
  after_results_simp <;> rfl
theorem s1_arg14 : W1 (F := Ideal) m ρ c (Proc.devRef .tc main_arg14) = a14 m c := by
  show StableHlo.after hostOps0 (W0 m ρ c) (Proc.devRef .tc main_arg14) = _
  after_results_simp <;> rfl
theorem s1_arg15 : W1 (F := Ideal) m ρ c (Proc.devRef .tc main_arg15) = a15 m c := by
  show StableHlo.after hostOps0 (W0 m ρ c) (Proc.devRef .tc main_arg15) = _
  after_results_simp <;> rfl
theorem s1_arg16 : W1 (F := Ideal) m ρ c (Proc.devRef .tc main_arg16) = a16 m c := by
  show StableHlo.after hostOps0 (W0 m ρ c) (Proc.devRef .tc main_arg16) = _
  after_results_simp <;> rfl
theorem s1_arg17 : W1 (F := Ideal) m ρ c (Proc.devRef .tc main_arg17) = a17 m c := by
  show StableHlo.after hostOps0 (W0 m ρ c) (Proc.devRef .tc main_arg17) = _
  after_results_simp <;> rfl
theorem s1_arg18 : W1 (F := Ideal) m ρ c (Proc.devRef .tc main_arg18) = a18 m c := by
  show StableHlo.after hostOps0 (W0 m ρ c) (Proc.devRef .tc main_arg18) = _
  after_results_simp <;> rfl
theorem s1_arg19 : W1 (F := Ideal) m ρ c (Proc.devRef .tc main_arg19) = a19 m c := by
  show StableHlo.after hostOps0 (W0 m ρ c) (Proc.devRef .tc main_arg19) = _
  after_results_simp <;> rfl
theorem s1_arg20 : W1 (F := Ideal) m ρ c (Proc.devRef .tc main_arg20) = a20 m c := by
  show StableHlo.after hostOps0 (W0 m ρ c) (Proc.devRef .tc main_arg20) = _
  after_results_simp <;> rfl
theorem s1_arg21 : W1 (F := Ideal) m ρ c (Proc.devRef .tc main_arg21) = a21 m c := by
  show StableHlo.after hostOps0 (W0 m ρ c) (Proc.devRef .tc main_arg21) = _
  after_results_simp <;> rfl
theorem s1_arg22 : W1 (F := Ideal) m ρ c (Proc.devRef .tc main_arg22) = a22 m c := by
  show StableHlo.after hostOps0 (W0 m ρ c) (Proc.devRef .tc main_arg22) = _
  after_results_simp <;> rfl
theorem s1_arg23 : W1 (F := Ideal) m ρ c (Proc.devRef .tc main_arg23) = a23 m c := by
  show StableHlo.after hostOps0 (W0 m ρ c) (Proc.devRef .tc main_arg23) = _
  after_results_simp <;> rfl
theorem s1_arg24 : W1 (F := Ideal) m ρ c (Proc.devRef .tc main_arg24) = a24 m c := by
  show StableHlo.after hostOps0 (W0 m ρ c) (Proc.devRef .tc main_arg24) = _
  after_results_simp <;> rfl
theorem s1_v1 : W1 (F := Ideal) m ρ c (Proc.devRef .tc main_v1) = srcRaw (a1 m c) := by
  show StableHlo.after hostOps0 (W0 m ρ c) (Proc.devRef .tc main_v1) = _
  after_results_simp <;> rfl
theorem s1_v3 : W1 (F := Ideal) m ρ c (Proc.devRef .tc main_v3) = dstRaw (a1 m c) := by
  show StableHlo.after hostOps0 (W0 m ρ c) (Proc.devRef .tc main_v3) = _
  after_results_simp <;> rfl
theorem s1_v12 : W1 (F := Ideal) m ρ c (Proc.devRef .tc main_v12) = cinv (dstRaw (a1 m c)) := by
  show StableHlo.after hostOps0 (W0 m ρ c) (Proc.devRef .tc main_v12) = _
  after_results_simp <;> rfl
theorem s1_v22 : W1 (F := Ideal) m ρ c (Proc.devRef .tc main_v22) = agg160 (a0 m c) (srcRaw (a1 m c)) (dstRaw (a1 m c)) := by
  show StableHlo.after hostOps0 (W0 m ρ c) (Proc.devRef .tc main_v22) = _
  after_results_simp <;> rfl
theorem s1_v27 : W1 (F := Ideal) m ρ c (Proc.devRef .tc main_v27) = row (a4 m c) := by
  show StableHlo.after hostOps0 (W0 m ρ c) (Proc.devRef .tc main_v27) = _
  after_results_simp <;> rfl
theorem s1_v28 : W1 (F := Ideal) m ρ c (Proc.devRef .tc main_v28) = row (scaleVec (a5 m c) (a8 m c)) := by
  show StableHlo.after hostOps0 (W0 m ρ c) (Proc.devRef .tc main_v28) = _
  after_results_simp <;> rfl
theorem s1_v29 : W1 (F := Ideal) m ρ c (Proc.devRef .tc main_v29) = row (a6 m c) := by
  show StableHlo.after hostOps0 (W0 m ρ c) (Proc.devRef .tc main_v29) = _
  after_results_simp <;> rfl
theorem s1_v30 : W1 (F := Ideal) m ρ c (Proc.devRef .tc main_v30) = row (a7 m c) := by
  show StableHlo.after hostOps0 (W0 m ρ c) (Proc.devRef .tc main_v30) = _
  after_results_simp <;> rfl

/-! ## Boundary 2 -/

theorem s2_arg9 : W2 (F := Ideal) m ρ c (Proc.devRef .tc main_arg9) = a9 m c :=
  (W2_of_ne m ρ c main_arg9 (by decide)).trans (s1_arg9 m ρ c)
theorem s2_arg10 : W2 (F := Ideal) m ρ c (Proc.devRef .tc main_arg10) = a10 m c :=
  (W2_of_ne m ρ c main_arg10 (by decide)).trans (s1_arg10 m ρ c)
theorem s2_arg11 : W2 (F := Ideal) m ρ c (Proc.devRef .tc main_arg11) = a11 m c :=
  (W2_of_ne m ρ c main_arg11 (by decide)).trans (s1_arg11 m ρ c)
theorem s2_arg12 : W2 (F := Ideal) m ρ c (Proc.devRef .tc main_arg12) = a12 m c :=
  (W2_of_ne m ρ c main_arg12 (by decide)).trans (s1_arg12 m ρ c)
theorem s2_arg13 : W2 (F := Ideal) m ρ c (Proc.devRef .tc main_arg13) = a13 m c :=
  (W2_of_ne m ρ c main_arg13 (by decide)).trans (s1_arg13 m ρ c)
theorem s2_arg14 : W2 (F := Ideal) m ρ c (Proc.devRef .tc main_arg14) = a14 m c :=
  (W2_of_ne m ρ c main_arg14 (by decide)).trans (s1_arg14 m ρ c)
theorem s2_arg15 : W2 (F := Ideal) m ρ c (Proc.devRef .tc main_arg15) = a15 m c :=
  (W2_of_ne m ρ c main_arg15 (by decide)).trans (s1_arg15 m ρ c)
theorem s2_arg16 : W2 (F := Ideal) m ρ c (Proc.devRef .tc main_arg16) = a16 m c :=
  (W2_of_ne m ρ c main_arg16 (by decide)).trans (s1_arg16 m ρ c)
theorem s2_arg17 : W2 (F := Ideal) m ρ c (Proc.devRef .tc main_arg17) = a17 m c :=
  (W2_of_ne m ρ c main_arg17 (by decide)).trans (s1_arg17 m ρ c)
theorem s2_arg18 : W2 (F := Ideal) m ρ c (Proc.devRef .tc main_arg18) = a18 m c :=
  (W2_of_ne m ρ c main_arg18 (by decide)).trans (s1_arg18 m ρ c)
theorem s2_arg19 : W2 (F := Ideal) m ρ c (Proc.devRef .tc main_arg19) = a19 m c :=
  (W2_of_ne m ρ c main_arg19 (by decide)).trans (s1_arg19 m ρ c)
theorem s2_arg20 : W2 (F := Ideal) m ρ c (Proc.devRef .tc main_arg20) = a20 m c :=
  (W2_of_ne m ρ c main_arg20 (by decide)).trans (s1_arg20 m ρ c)
theorem s2_arg21 : W2 (F := Ideal) m ρ c (Proc.devRef .tc main_arg21) = a21 m c :=
  (W2_of_ne m ρ c main_arg21 (by decide)).trans (s1_arg21 m ρ c)
theorem s2_arg22 : W2 (F := Ideal) m ρ c (Proc.devRef .tc main_arg22) = a22 m c :=
  (W2_of_ne m ρ c main_arg22 (by decide)).trans (s1_arg22 m ρ c)
theorem s2_arg23 : W2 (F := Ideal) m ρ c (Proc.devRef .tc main_arg23) = a23 m c :=
  (W2_of_ne m ρ c main_arg23 (by decide)).trans (s1_arg23 m ρ c)
theorem s2_arg24 : W2 (F := Ideal) m ρ c (Proc.devRef .tc main_arg24) = a24 m c :=
  (W2_of_ne m ρ c main_arg24 (by decide)).trans (s1_arg24 m ρ c)
theorem s2_v1 : W2 (F := Ideal) m ρ c (Proc.devRef .tc main_v1) = srcRaw (a1 m c) :=
  (W2_of_ne m ρ c main_v1 (by decide)).trans (s1_v1 m ρ c)
theorem s2_v3 : W2 (F := Ideal) m ρ c (Proc.devRef .tc main_v3) = dstRaw (a1 m c) :=
  (W2_of_ne m ρ c main_v3 (by decide)).trans (s1_v3 m ρ c)
theorem s2_v12 : W2 (F := Ideal) m ρ c (Proc.devRef .tc main_v12) = cinv (dstRaw (a1 m c)) :=
  ((W2_arr m ρ c 2).trans (((dat0 (V1 m ρ) c).arrAt_in 2 rfl _).trans (A_eq0 (V1 m ρ) c 2))).trans (s1_v12 m ρ c)
theorem s2_v31 : W2 (F := Ideal) m ρ c (Proc.devRef .tc main_v31) = h1 m c := by
  refine (W2_arr m ρ c 9).trans ((Layer0.final (V1 m ρ) c).trans ?_)
  unfold Layer0.G
  show layer (W1 (F := Ideal) m ρ c (Proc.devRef .tc main_v22)) (W1 (F := Ideal) m ρ c (Proc.devRef .tc main_arg0)) (W1 (F := Ideal) m ρ c (Proc.devRef .tc main_v12)) (W1 (F := Ideal) m ρ c (Proc.devRef .tc main_arg2)) (W1 (F := Ideal) m ρ c (Proc.devRef .tc main_arg3)) (W1 (F := Ideal) m ρ c (Proc.devRef .tc main_v27)) (W1 (F := Ideal) m ρ c (Proc.devRef .tc main_v28)) (W1 (F := Ideal) m ρ c (Proc.devRef .tc main_v29)) (W1 (F := Ideal) m ρ c (Proc.devRef .tc main_v30)) Layer0.floor0 = _
  rw [s1_v22 m ρ c, s1_arg0 m ρ c, s1_v12 m ρ c, s1_arg2 m ρ c, s1_arg3 m ρ c, s1_v27 m ρ c, s1_v28 m ρ c, s1_v29 m ρ c, s1_v30 m ρ c]
  rfl

/-! ## Boundary 3 -/

theorem s3_arg9 : W3 (F := Ideal) m ρ c (Proc.devRef .tc main_arg9) = a9 m c := by
  show StableHlo.after hostOps1 (W2 m ρ c) (Proc.devRef .tc main_arg9) = _
  after_results_simp
  exact s2_arg9 m ρ c
theorem s3_arg10 : W3 (F := Ideal) m ρ c (Proc.devRef .tc main_arg10) = a10 m c := by
  show StableHlo.after hostOps1 (W2 m ρ c) (Proc.devRef .tc main_arg10) = _
  after_results_simp
  exact s2_arg10 m ρ c
theorem s3_arg16 : W3 (F := Ideal) m ρ c (Proc.devRef .tc main_arg16) = a16 m c := by
  show StableHlo.after hostOps1 (W2 m ρ c) (Proc.devRef .tc main_arg16) = _
  after_results_simp
  exact s2_arg16 m ρ c
theorem s3_arg17 : W3 (F := Ideal) m ρ c (Proc.devRef .tc main_arg17) = a17 m c := by
  show StableHlo.after hostOps1 (W2 m ρ c) (Proc.devRef .tc main_arg17) = _
  after_results_simp
  exact s2_arg17 m ρ c
theorem s3_arg18 : W3 (F := Ideal) m ρ c (Proc.devRef .tc main_arg18) = a18 m c := by
  show StableHlo.after hostOps1 (W2 m ρ c) (Proc.devRef .tc main_arg18) = _
  after_results_simp
  exact s2_arg18 m ρ c
theorem s3_arg19 : W3 (F := Ideal) m ρ c (Proc.devRef .tc main_arg19) = a19 m c := by
  show StableHlo.after hostOps1 (W2 m ρ c) (Proc.devRef .tc main_arg19) = _
  after_results_simp
  exact s2_arg19 m ρ c
theorem s3_arg20 : W3 (F := Ideal) m ρ c (Proc.devRef .tc main_arg20) = a20 m c := by
  show StableHlo.after hostOps1 (W2 m ρ c) (Proc.devRef .tc main_arg20) = _
  after_results_simp
  exact s2_arg20 m ρ c
theorem s3_arg21 : W3 (F := Ideal) m ρ c (Proc.devRef .tc main_arg21) = a21 m c := by
  show StableHlo.after hostOps1 (W2 m ρ c) (Proc.devRef .tc main_arg21) = _
  after_results_simp
  exact s2_arg21 m ρ c
theorem s3_arg22 : W3 (F := Ideal) m ρ c (Proc.devRef .tc main_arg22) = a22 m c := by
  show StableHlo.after hostOps1 (W2 m ρ c) (Proc.devRef .tc main_arg22) = _
  after_results_simp
  exact s2_arg22 m ρ c
theorem s3_arg23 : W3 (F := Ideal) m ρ c (Proc.devRef .tc main_arg23) = a23 m c := by
  show StableHlo.after hostOps1 (W2 m ρ c) (Proc.devRef .tc main_arg23) = _
  after_results_simp
  exact s2_arg23 m ρ c
theorem s3_arg24 : W3 (F := Ideal) m ρ c (Proc.devRef .tc main_arg24) = a24 m c := by
  show StableHlo.after hostOps1 (W2 m ρ c) (Proc.devRef .tc main_arg24) = _
  after_results_simp
  exact s2_arg24 m ρ c
theorem s3_v1 : W3 (F := Ideal) m ρ c (Proc.devRef .tc main_v1) = srcRaw (a1 m c) := by
  show StableHlo.after hostOps1 (W2 m ρ c) (Proc.devRef .tc main_v1) = _
  after_results_simp
  exact s2_v1 m ρ c
theorem s3_v3 : W3 (F := Ideal) m ρ c (Proc.devRef .tc main_v3) = dstRaw (a1 m c) := by
  show StableHlo.after hostOps1 (W2 m ρ c) (Proc.devRef .tc main_v3) = _
  after_results_simp
  exact s2_v3 m ρ c
theorem s3_v12 : W3 (F := Ideal) m ρ c (Proc.devRef .tc main_v12) = cinv (dstRaw (a1 m c)) := by
  show StableHlo.after hostOps1 (W2 m ρ c) (Proc.devRef .tc main_v12) = _
  after_results_simp
  exact s2_v12 m ρ c
theorem s3_v31 : W3 (F := Ideal) m ρ c (Proc.devRef .tc main_v31) = h1 m c := by
  show StableHlo.after hostOps1 (W2 m ρ c) (Proc.devRef .tc main_v31) = _
  after_results_simp
  exact s2_v31 m ρ c
theorem s3_v41 : W3 (F := Ideal) m ρ c (Proc.devRef .tc main_v41) = agg128 (h1 m c) (srcRaw (a1 m c)) (dstRaw (a1 m c)) := by
  show StableHlo.after hostOps1 (W2 m ρ c) (Proc.devRef .tc main_v41) = _
  after_results_simp
  (rw [s2_v31 m ρ c, s2_v1 m ρ c, s2_v3 m ρ c]) <;> rfl
theorem s3_v46 : W3 (F := Ideal) m ρ c (Proc.devRef .tc main_v46) = row (a11 m c) := by
  show StableHlo.after hostOps1 (W2 m ρ c) (Proc.devRef .tc main_v46) = _
  after_results_simp
  (rw [s2_arg11 m ρ c]) <;> rfl
theorem s3_v47 : W3 (F := Ideal) m ρ c (Proc.devRef .tc main_v47) = row (scaleVec (a12 m c) (a15 m c)) := by
  show StableHlo.after hostOps1 (W2 m ρ c) (Proc.devRef .tc main_v47) = _
  after_results_simp
  (rw [s2_arg12 m ρ c, s2_arg15 m ρ c]) <;> rfl
theorem s3_v48 : W3 (F := Ideal) m ρ c (Proc.devRef .tc main_v48) = row (a13 m c) := by
  show StableHlo.after hostOps1 (W2 m ρ c) (Proc.devRef .tc main_v48) = _
  after_results_simp
  (rw [s2_arg13 m ρ c]) <;> rfl
theorem s3_v49 : W3 (F := Ideal) m ρ c (Proc.devRef .tc main_v49) = row (a14 m c) := by
  show StableHlo.after hostOps1 (W2 m ρ c) (Proc.devRef .tc main_v49) = _
  after_results_simp
  (rw [s2_arg14 m ρ c]) <;> rfl

/-! ## Boundary 4 -/

theorem s4_arg16 : W4 (F := Ideal) m ρ c (Proc.devRef .tc main_arg16) = a16 m c :=
  (W4_of_ne m ρ c main_arg16 (by decide)).trans (s3_arg16 m ρ c)
theorem s4_arg17 : W4 (F := Ideal) m ρ c (Proc.devRef .tc main_arg17) = a17 m c :=
  (W4_of_ne m ρ c main_arg17 (by decide)).trans (s3_arg17 m ρ c)
theorem s4_arg18 : W4 (F := Ideal) m ρ c (Proc.devRef .tc main_arg18) = a18 m c :=
  (W4_of_ne m ρ c main_arg18 (by decide)).trans (s3_arg18 m ρ c)
theorem s4_arg19 : W4 (F := Ideal) m ρ c (Proc.devRef .tc main_arg19) = a19 m c :=
  (W4_of_ne m ρ c main_arg19 (by decide)).trans (s3_arg19 m ρ c)
theorem s4_arg20 : W4 (F := Ideal) m ρ c (Proc.devRef .tc main_arg20) = a20 m c :=
  (W4_of_ne m ρ c main_arg20 (by decide)).trans (s3_arg20 m ρ c)
theorem s4_arg21 : W4 (F := Ideal) m ρ c (Proc.devRef .tc main_arg21) = a21 m c :=
  (W4_of_ne m ρ c main_arg21 (by decide)).trans (s3_arg21 m ρ c)
theorem s4_arg22 : W4 (F := Ideal) m ρ c (Proc.devRef .tc main_arg22) = a22 m c :=
  (W4_of_ne m ρ c main_arg22 (by decide)).trans (s3_arg22 m ρ c)
theorem s4_arg23 : W4 (F := Ideal) m ρ c (Proc.devRef .tc main_arg23) = a23 m c :=
  (W4_of_ne m ρ c main_arg23 (by decide)).trans (s3_arg23 m ρ c)
theorem s4_arg24 : W4 (F := Ideal) m ρ c (Proc.devRef .tc main_arg24) = a24 m c :=
  (W4_of_ne m ρ c main_arg24 (by decide)).trans (s3_arg24 m ρ c)
theorem s4_v1 : W4 (F := Ideal) m ρ c (Proc.devRef .tc main_v1) = srcRaw (a1 m c) :=
  (W4_of_ne m ρ c main_v1 (by decide)).trans (s3_v1 m ρ c)
theorem s4_v3 : W4 (F := Ideal) m ρ c (Proc.devRef .tc main_v3) = dstRaw (a1 m c) :=
  (W4_of_ne m ρ c main_v3 (by decide)).trans (s3_v3 m ρ c)
theorem s4_v12 : W4 (F := Ideal) m ρ c (Proc.devRef .tc main_v12) = cinv (dstRaw (a1 m c)) :=
  ((W4_arr m ρ c 2).trans (((dat1 (V3 m ρ) c).arrAt_in 2 rfl _).trans (A_eq1 (V3 m ρ) c 2))).trans (s3_v12 m ρ c)
theorem s4_v50 : W4 (F := Ideal) m ρ c (Proc.devRef .tc main_v50) = h2 m c := by
  refine (W4_arr m ρ c 9).trans ((Layer1.final (V3 m ρ) c).trans ?_)
  unfold Layer1.G
  show layer (W3 (F := Ideal) m ρ c (Proc.devRef .tc main_v41)) (W3 (F := Ideal) m ρ c (Proc.devRef .tc main_v31)) (W3 (F := Ideal) m ρ c (Proc.devRef .tc main_v12)) (W3 (F := Ideal) m ρ c (Proc.devRef .tc main_arg9)) (W3 (F := Ideal) m ρ c (Proc.devRef .tc main_arg10)) (W3 (F := Ideal) m ρ c (Proc.devRef .tc main_v46)) (W3 (F := Ideal) m ρ c (Proc.devRef .tc main_v47)) (W3 (F := Ideal) m ρ c (Proc.devRef .tc main_v48)) (W3 (F := Ideal) m ρ c (Proc.devRef .tc main_v49)) Layer1.floor0 = _
  rw [s3_v41 m ρ c, s3_v31 m ρ c, s3_v12 m ρ c, s3_arg9 m ρ c, s3_arg10 m ρ c, s3_v46 m ρ c, s3_v47 m ρ c, s3_v48 m ρ c, s3_v49 m ρ c]
  rfl

/-! ## Boundary 5 -/

theorem s5_arg16 : W5 (F := Ideal) m ρ c (Proc.devRef .tc main_arg16) = a16 m c := by
  show StableHlo.after hostOps2 (W4 m ρ c) (Proc.devRef .tc main_arg16) = _
  after_results_simp
  exact s4_arg16 m ρ c
theorem s5_arg17 : W5 (F := Ideal) m ρ c (Proc.devRef .tc main_arg17) = a17 m c := by
  show StableHlo.after hostOps2 (W4 m ρ c) (Proc.devRef .tc main_arg17) = _
  after_results_simp
  exact s4_arg17 m ρ c
theorem s5_arg23 : W5 (F := Ideal) m ρ c (Proc.devRef .tc main_arg23) = a23 m c := by
  show StableHlo.after hostOps2 (W4 m ρ c) (Proc.devRef .tc main_arg23) = _
  after_results_simp
  exact s4_arg23 m ρ c
theorem s5_arg24 : W5 (F := Ideal) m ρ c (Proc.devRef .tc main_arg24) = a24 m c := by
  show StableHlo.after hostOps2 (W4 m ρ c) (Proc.devRef .tc main_arg24) = _
  after_results_simp
  exact s4_arg24 m ρ c
theorem s5_v12 : W5 (F := Ideal) m ρ c (Proc.devRef .tc main_v12) = cinv (dstRaw (a1 m c)) := by
  show StableHlo.after hostOps2 (W4 m ρ c) (Proc.devRef .tc main_v12) = _
  after_results_simp
  exact s4_v12 m ρ c
theorem s5_v50 : W5 (F := Ideal) m ρ c (Proc.devRef .tc main_v50) = h2 m c := by
  show StableHlo.after hostOps2 (W4 m ρ c) (Proc.devRef .tc main_v50) = _
  after_results_simp
  exact s4_v50 m ρ c
theorem s5_v60 : W5 (F := Ideal) m ρ c (Proc.devRef .tc main_v60) = agg128 (h2 m c) (srcRaw (a1 m c)) (dstRaw (a1 m c)) := by
  show StableHlo.after hostOps2 (W4 m ρ c) (Proc.devRef .tc main_v60) = _
  after_results_simp
  (rw [s4_v50 m ρ c, s4_v1 m ρ c, s4_v3 m ρ c]) <;> rfl
theorem s5_v65 : W5 (F := Ideal) m ρ c (Proc.devRef .tc main_v65) = row (a18 m c) := by
  show StableHlo.after hostOps2 (W4 m ρ c) (Proc.devRef .tc main_v65) = _
  after_results_simp
  (rw [s4_arg18 m ρ c]) <;> rfl
theorem s5_v66 : W5 (F := Ideal) m ρ c (Proc.devRef .tc main_v66) = row (scaleVec (a19 m c) (a22 m c)) := by
  show StableHlo.after hostOps2 (W4 m ρ c) (Proc.devRef .tc main_v66) = _
  after_results_simp
  (rw [s4_arg19 m ρ c, s4_arg22 m ρ c]) <;> rfl
theorem s5_v67 : W5 (F := Ideal) m ρ c (Proc.devRef .tc main_v67) = row (a20 m c) := by
  show StableHlo.after hostOps2 (W4 m ρ c) (Proc.devRef .tc main_v67) = _
  after_results_simp
  (rw [s4_arg20 m ρ c]) <;> rfl
theorem s5_v68 : W5 (F := Ideal) m ρ c (Proc.devRef .tc main_v68) = row (a21 m c) := by
  show StableHlo.after hostOps2 (W4 m ρ c) (Proc.devRef .tc main_v68) = _
  after_results_simp
  (rw [s4_arg21 m ρ c]) <;> rfl

/-! ## Boundary 6 -/

theorem s6_arg23 : W6 (F := Ideal) m ρ c (Proc.devRef .tc main_arg23) = a23 m c :=
  (W6_of_ne m ρ c main_arg23 (by decide)).trans (s5_arg23 m ρ c)
theorem s6_arg24 : W6 (F := Ideal) m ρ c (Proc.devRef .tc main_arg24) = a24 m c :=
  (W6_of_ne m ρ c main_arg24 (by decide)).trans (s5_arg24 m ρ c)
theorem s6_v69 : W6 (F := Ideal) m ρ c (Proc.devRef .tc main_v69) = h3 m c := by
  refine (W6_arr m ρ c 9).trans ((Layer2.final (V5 m ρ) c).trans ?_)
  unfold Layer2.G
  show layer (W5 (F := Ideal) m ρ c (Proc.devRef .tc main_v60)) (W5 (F := Ideal) m ρ c (Proc.devRef .tc main_v50)) (W5 (F := Ideal) m ρ c (Proc.devRef .tc main_v12)) (W5 (F := Ideal) m ρ c (Proc.devRef .tc main_arg16)) (W5 (F := Ideal) m ρ c (Proc.devRef .tc main_arg17)) (W5 (F := Ideal) m ρ c (Proc.devRef .tc main_v65)) (W5 (F := Ideal) m ρ c (Proc.devRef .tc main_v66)) (W5 (F := Ideal) m ρ c (Proc.devRef .tc main_v67)) (W5 (F := Ideal) m ρ c (Proc.devRef .tc main_v68)) Layer2.floor0 = _
  rw [s5_v60 m ρ c, s5_v50 m ρ c, s5_v12 m ρ c, s5_arg16 m ρ c, s5_arg17 m ρ c, s5_v65 m ρ c, s5_v66 m ρ c, s5_v67 m ρ c, s5_v68 m ρ c]
  rfl

/-! ## Boundary 7 -/

theorem s7_v74 : W7 (F := Ideal) m ρ c (Proc.devRef .tc main_v74) = out m c := by
  show StableHlo.after hostOps3 (W6 m ρ c) (Proc.devRef .tc main_v74) = _
  after_results_simp
  (rw [s6_v69 m ρ c, s6_arg23 m ρ c, s6_arg24 m ρ c]) <;> rfl

/-- THE RESULT BUFFER at the end of the fold: the last step applied to the three layers of the launch arguments. -/
theorem fold_value : W7 (F := Ideal) m ρ c (Proc.devRef .tc main_v74) = out m c := s7_v74 m ρ c

end Cert.KernelIdeal.Fold

end
-- ==== Proof.RefTerms.lean ====
/-
  The idealized reference's computations, named, and its run's result as three layers and a last step.

  The reference computes the same source and target nodes, neighbour sums and guarded counts as the kernel's host side.
  Its layer divides the neighbour sums by the guarded count spread over the columns, multiplies by the first weights, adds
  the bias spread over the rows, adds the product of the features with the second weights, subtracts the mean, multiplies
  by the scale, adds the shift and takes the maximum with zero. Its result is the last step applied to three such layers,
  each fed the one before: the term its run ends at, folded into these names.
-/
import proofs.«179291_j9483287789910_1_alg».proof.Proof.Gen.ReferenceIdeal.Run
import Idealize.ShloMosaic.PureOps.Ideal

set_option maxRecDepth 16384

noncomputable section

namespace Cert.ReferenceIdeal.Terms

open Idealize.ShloMosaic Idealize.SL.Sem Cert.ReferenceIdeal Cert.ReferenceIdeal.Gen

abbrev CF (s : Shape) := FVec Ideal s .f32
abbrev CI (s : Shape) := IVec s 32

/-- Each edge's source node, as stored. -/
def srcRaw (e : CI S2x1600000) : CI S1600000 :=
  shapeCast S1600000 (extractStridedSlice S1x1600000 ![0, 0] e slices_S2x1600000_S1x1600000_0_0) shapeCasts_S1x1600000_S1600000
/-- Each edge's target node, as stored. -/
def dstRaw (e : CI S2x1600000) : CI S1600000 :=
  shapeCast S1600000 (extractStridedSlice S1x1600000 ![1, 0] e slices_S2x1600000_S1x1600000_1_0) shapeCasts_S1x1600000_S1600000
/-- The source nodes as a column of row numbers, a negative one wrapped by the number of nodes. -/
def srcIdx (s : CI S1600000) : CI S1600000x1 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)
/-- The target nodes as a column of row numbers. -/
def dstIdx (d : CI S1600000) : CI S1600000x1 := broadcastInDim S1600000x1 ![0] bcast_S1600000_S1600000x1_0 d

/-- The sum, over the edges into each node, of the source node's row: width 160. -/
def agg160 (h : CF S100000x160) (s d : CI S1600000) : CF S100000x160 :=
  Host.scatterAdd (F := Ideal) scatter_S100000x160_S1600000x1_S1600000x160_1_0_0_1
    (broadcastInDim S100000x160 ![] bcast_S_S100000x160 (constant (F := Ideal) S_ .f32 0x00000000#32)) (dstIdx d)
    (Host.gather gather_S100000x160_S1600000x1_S1600000x160_1_0_n_n_0_1_1160 h (srcIdx s))
/-- The same at width 128. -/
def agg128 (h : CF S100000x128) (s d : CI S1600000) : CF S100000x128 :=
  Host.scatterAdd (F := Ideal) scatter_S100000x128_S1600000x1_S1600000x128_1_0_0_1
    (broadcastInDim S100000x128 ![] bcast_S_S100000x128 (constant (F := Ideal) S_ .f32 0x00000000#32)) (dstIdx d)
    (Host.gather gather_S100000x128_S1600000x1_S1600000x128_1_0_n_n_0_1_1128 h (srcIdx s))

/-- The number of edges into each node. -/
def cnt (d : CI S1600000) : CF S100000 :=
  Host.scatterAdd (F := Ideal) scatter_S100000_S1600000x1_S1600000_n_0_0_1
    (broadcastInDim S100000 ![] bcast_S_S100000 (constant (F := Ideal) S_ .f32 0x00000000#32)) (dstIdx d)
    (broadcastInDim S1600000 ![] bcast_S_S1600000 (constant (F := Ideal) S_ .f32 0x3F800000#32))
/-- The count guarded from below by one. -/
def cntMax (d : CI S1600000) : CF S100000 :=
  maximumf (cnt d) (broadcastInDim S100000 ![] bcast_S_S100000 (constant (F := Ideal) S_ .f32 0x3F800000#32))

/-- The normalisation's scale: the gain times the reciprocal square root of the variance plus a small constant. -/
def scaleVec (g rv : CF S128) : CF S128 :=
  mulf g (Host.rsqrt (F := Ideal) (addf rv (broadcastInDim S128 ![] bcast_S_S128 (constant (F := Ideal) S_ .f32 0x3727C5AC#32))))
/-- A parameter vector spread down the rows of a node array. -/
def spread (v : CF S128) : CF S100000x128 :=
  broadcastInDim S100000x128 ![0, 1] bcast_S1x128_S100000x128_0_1 (broadcastInDim S1x128 ![1] bcast_S128_S1x128_1 v)

/-- The last step: the product with the weight column plus the constant, as a vector. -/
def head (h : CF S100000x128) (lw : CF S128x1) (lb : CF S1) : CF S100000 :=
  shapeCast S100000 (addf (Host.dotGeneral (F := Ideal) dot_S100000x128_S128x1_S100000x1_1_0_0_1_n_n none h lw)
    (broadcastInDim S100000x1 ![0, 1] bcast_S1x1_S100000x1_0_1 (broadcastInDim S1x1 ![1] bcast_S1_S1x1_1 lb))) shapeCasts_S100000x1_S100000

/-- A layer from width 160, in the reference's arrangement. -/
def layer160 (h : CF S100000x160) (e : CI S2x1600000) (wl wr : CF S160x128) (bl g be rm rv : CF S128) : CF S100000x128 :=
  maximumf (addf (mulf (subf (addf (addf
      (Host.dotGeneral (F := Ideal) dot_S100000x160_S160x128_S100000x128_1_0_0_1_n_n none
        (Host.divf (F := Ideal) (agg160 h (srcRaw e) (dstRaw e))
          (broadcastInDim S100000x160 ![0, 1] bcast_S100000x1_S100000x160_0_1
            (broadcastInDim S100000x1 ![0] bcast_S100000_S100000x1_0 (cntMax (dstRaw e))))) wl)
      (spread bl))
      (Host.dotGeneral (F := Ideal) dot_S100000x160_S160x128_S100000x128_1_0_0_1_n_n none h wr))
      (spread rm))
      (spread (scaleVec g rv)))
      (spread be))
    (broadcastInDim S100000x128 ![] bcast_S_S100000x128 (constant (F := Ideal) S_ .f32 0x00000000#32))
/-- A layer from width 128, in the reference's arrangement. -/
def layer128 (h : CF S100000x128) (e : CI S2x1600000) (wl wr : CF S128x128) (bl g be rm rv : CF S128) : CF S100000x128 :=
  maximumf (addf (mulf (subf (addf (addf
      (Host.dotGeneral (F := Ideal) dot_S100000x128_S128x128_S100000x128_1_0_0_1_n_n none
        (Host.divf (F := Ideal) (agg128 h (srcRaw e) (dstRaw e))
          (broadcastInDim S100000x128 ![0, 1] bcast_S100000x1_S100000x128_0_1
            (broadcastInDim S100000x1 ![0] bcast_S100000_S100000x1_0 (cntMax (dstRaw e))))) wl)
      (spread bl))
      (Host.dotGeneral (F := Ideal) dot_S100000x128_S128x128_S100000x128_1_0_0_1_n_n none h wr))
      (spread rm))
      (spread (scaleVec g rv)))
      (spread be))
    (broadcastInDim S100000x128 ![] bcast_S_S100000x128 (constant (F := Ideal) S_ .f32 0x00000000#32))

variable (m : (ℓ : Loc nD τ sig) → Buf (Elt Ideal) ℓ) (c : Dev nD)

abbrev a0 : CF S100000x160 := m ((c.tc : Thread nD τ).loc main_arg0)
abbrev a1 : CI S2x1600000 := m ((c.tc : Thread nD τ).loc main_arg1)
abbrev a2 : CF S160x128 := m ((c.tc : Thread nD τ).loc main_arg2)
abbrev a3 : CF S160x128 := m ((c.tc : Thread nD τ).loc main_arg3)
abbrev a4 : CF S128 := m ((c.tc : Thread nD τ).loc main_arg4)
abbrev a5 : CF S128 := m ((c.tc : Thread nD τ).loc main_arg5)
abbrev a6 : CF S128 := m ((c.tc : Thread nD τ).loc main_arg6)
abbrev a7 : CF S128 := m ((c.tc : Thread nD τ).loc main_arg7)
abbrev a8 : CF S128 := m ((c.tc : Thread nD τ).loc main_arg8)
abbrev a9 : CF S128x128 := m ((c.tc : Thread nD τ).loc main_arg9)
abbrev a10 : CF S128x128 := m ((c.tc : Thread nD τ).loc main_arg10)
abbrev a11 : CF S128 := m ((c.tc : Thread nD τ).loc main_arg11)
abbrev a12 : CF S128 := m ((c.tc : Thread nD τ).loc main_arg12)
abbrev a13 : CF S128 := m ((c.tc : Thread nD τ).loc main_arg13)
abbrev a14 : CF S128 := m ((c.tc : Thread nD τ).loc main_arg14)
abbrev a15 : CF S128 := m ((c.tc : Thread nD τ).loc main_arg15)
abbrev a16 : CF S128x128 := m ((c.tc : Thread nD τ).loc main_arg16)
abbrev a17 : CF S128x128 := m ((c.tc : Thread nD τ).loc main_arg17)
abbrev a18 : CF S128 := m ((c.tc : Thread nD τ).loc main_arg18)
abbrev a19 : CF S128 := m ((c.tc : Thread nD τ).loc main_arg19)
abbrev a20 : CF S128 := m ((c.tc : Thread nD τ).loc main_arg20)
abbrev a21 : CF S128 := m ((c.tc : Thread nD τ).loc main_arg21)
abbrev a22 : CF S128 := m ((c.tc : Thread nD τ).loc main_arg22)
abbrev a23 : CF S128x1 := m ((c.tc : Thread nD τ).loc main_arg23)
abbrev a24 : CF S1 := m ((c.tc : Thread nD τ).loc main_arg24)

/-- The first layer: from the node features. -/
def h1 : CF S100000x128 := layer160 (a0 m c) (a1 m c) (a2 m c) (a3 m c) (a4 m c) (a5 m c) (a6 m c) (a7 m c) (a8 m c)
/-- The second layer: from the first. -/
def h2 : CF S100000x128 := layer128 (h1 m c) (a1 m c) (a9 m c) (a10 m c) (a11 m c) (a12 m c) (a13 m c) (a14 m c) (a15 m c)
/-- The third layer: from the second. -/
def h3 : CF S100000x128 := layer128 (h2 m c) (a1 m c) (a16 m c) (a17 m c) (a18 m c) (a19 m c) (a20 m c) (a21 m c) (a22 m c)
/-- The reference's result. -/
def out : CF S100000 := head (h3 m c) (a23 m c) (a24 m c)

/-- The term the reference's run ends at is the last step applied to the three layers. -/
theorem res_eq : Cert.ReferenceIdeal.Value.res_main_v125 (F := Ideal) m c = out m c := by
  unfold Cert.ReferenceIdeal.Value.res_main_v125
  rfl

end Cert.ReferenceIdeal.Terms

end
-- ==== Proof.LibColRow.lean ====
/-
  Columns and rows of a rank-2 array on the host: the layouts a per-row scale and a per-column bias pass through.

  A vector of a entries becomes an [a, 1] column, either by a reshape or by a broadcast along a new unit axis, and the column
  is then repeated across b lanes; a vector of b entries becomes a [1, b] row and is repeated down a rows. Read at an index
  written by its coordinates, each of these is the operand at the row coordinate alone (for a column) or at the lane
  coordinate alone (for a row).
-/
import Idealize.ShloMosaic.Lib.ValueIdx
import Idealize.ShloMosaic.Lib.Pipeline.Value

namespace Cert.LibColRow

open Idealize.ShloMosaic Idealize.ShloMosaic.ValueIdx

variable {α : Type}

/-- A vector broadcast to an `[a, 1]` column reads, at `(p, u)`, the vector at `p`. -/
theorem bcast_a_a1_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A vector reshaped to an `[a, 1]` column reads, at `(p, u)`, the vector at `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An `[a, 1]` column broadcast (along both axes in place) to `[a, b]` reads, at `(p, q)`, the column at row `p`. -/
theorem bcast_a1_ab_apply {a b : ℕ} (col : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ (![0, 1] : Fin 2 → Fin 2) h col (ix2 p q) = col (ix2 p (0 : Fin 1)) := by
  refine broadcastInDim_apply _ h col (ix2 p q) (ix2 p (0 : Fin 1)) fun ax => ?_
  match ax with
  | ⟨0, _⟩ =>
    show p.val = if a = 1 then 0 else p.val
    split
    · have := p.isLt; omega
    · rfl
  | ⟨1, _⟩ => exact (if_pos rfl).symm

/-- A vector broadcast to a `[1, b]` row reads, at `(u, q)`, the vector at `q`. -/
theorem bcast_b_1b_apply {b : ℕ} (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h v (ix2 u q) = v (ix1 q) := by
  refine broadcastInDim_apply _ h v (ix2 u q) (ix1 q) fun ax => ?_
  match ax with
  | ⟨0, _⟩ =>
    show q.val = if b = 1 then 0 else q.val
    split
    · have := q.isLt; omega
    · rfl

/-- A `[1, b]` row broadcast (along both axes in place) to `[a, b]` reads, at `(p, q)`, the row at lane `q`. -/
theorem bcast_1b_ab_apply {a b : ℕ} (row : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h row (ix2 p q) = row (ix2 (0 : Fin 1) q) := by
  refine broadcastInDim_apply _ h row (ix2 p q) (ix2 (0 : Fin 1) q) fun ax => ?_
  match ax with
  | ⟨0, _⟩ => exact (if_pos rfl).symm
  | ⟨1, _⟩ =>
    show q.val = if b = 1 then 0 else q.val
    split
    · have := q.isLt; omega
    · rfl

end Cert.LibColRow
-- ==== Proof.LibRecipMean.lean ====
/-
  A mean taken with a reciprocal computed once, on the extended reals.

  A count a is guarded as max(a, 1) before it divides a sum. One program divides each sum by the guarded count; another computes
  the reciprocal 1 / max(a, 1) once and multiplies each sum by it. With division read as "the product with the inverse, except by
  zero", the two agree for every extended real x and a, finite or not: max(a, 1) is at least 1, so it is not zero, both quotients
  are products with its inverse, and 1 · c⁻¹ = c⁻¹. (When a is +∞ both sides are x · 0.)
-/
import Idealize.ShloMosaic.PureOps.Ideal

noncomputable section

namespace Cert.LibRecipMean

open Idealize.ShloMosaic

/-- A count guarded from below by 1 is not zero, whatever extended real the count is. -/
theorem max_one_ne_zero (a : EReal) : max a (1 : EReal) ≠ 0 := by
  intro h
  have h1 : (1 : EReal) ≤ max a 1 := le_max_right _ _
  rw [h] at h1
  exact absurd h1 (by norm_num)

/-- The reciprocal of a guarded count is its inverse. -/
theorem recip_eq_inv (a : EReal) : Ideal.div 1 (max a 1) = (max a 1)⁻¹ := by
  rw [Ideal.div, if_neg (max_one_ne_zero a), one_mul]

/-- A product with the reciprocal of max(a, 1) is the quotient by max(a, 1), for every extended real x and a. The constant o is
    the program's literal for one, with the fact that it denotes 1. -/
theorem mul_recip_eq_div (x a o : EReal) (ho : o = 1) : x * Ideal.div o (max a o) = Ideal.div x (max a o) := by
  subst ho
  rw [recip_eq_inv, Ideal.div, if_neg (max_one_ne_zero a)]

end Cert.LibRecipMean

end
-- ==== Proof.LibF32Literals.lean ====
/-
  Binary32 literals as extended reals. At the exact (extended-real) reading of floats a literal is the value its
  IEEE-754 pattern denotes: sign bit, eight exponent bits with bias 127, twenty-three fraction bits. The patterns
  here are those of 0, 1, 2, 16, 256 and 16384.
-/
import Idealize.ShloMosaic.PureOps.Ideal

noncomputable section

namespace Cert.LibF32Literals

open Idealize.ShloMosaic

/-- The pattern of +0.0 denotes 0. -/
theorem ofBits_zero : Ideal.ofBits .f32 0x00000000#32 = 0 := by
  simp [Ideal.ofBits, Ideal.ieee]

/-- The pattern 0x3F800000 denotes 1. -/
theorem ofBits_one : Ideal.ofBits .f32 0x3F800000#32 = 1 := by
  simp [Ideal.ofBits, Ideal.ieee, -EReal.coe_mul]; norm_num

/-- The pattern 0x3F800000 denotes the real 1. -/
theorem ofBits_one_coe : Ideal.ofBits .f32 0x3F800000#32 = ((1 : ℝ) : EReal) := by
  rw [ofBits_one]; norm_cast

/-- The pattern 0x40000000 denotes the real 2. -/
theorem ofBits_two : Ideal.ofBits .f32 0x40000000#32 = ((2 : ℝ) : EReal) := by
  simp [Ideal.ofBits, Ideal.ieee, -EReal.coe_mul]; norm_num

/-- The pattern 0x41800000 denotes the real 16. -/
theorem ofBits_16 : Ideal.ofBits .f32 0x41800000#32 = ((16 : ℝ) : EReal) := by
  simp [Ideal.ofBits, Ideal.ieee, -EReal.coe_mul]; norm_num

/-- The pattern 0x43800000 denotes the real 256. -/
theorem ofBits_256 : Ideal.ofBits .f32 0x43800000#32 = ((256 : ℝ) : EReal) := by
  simp [Ideal.ofBits, Ideal.ieee, -EReal.coe_mul]; norm_num

/-- The pattern 0x46800000 denotes the real 16384. -/
theorem ofBits_16384 : Ideal.ofBits .f32 0x46800000#32 = ((16384 : ℝ) : EReal) := by
  simp [Ideal.ofBits, Ideal.ieee, -EReal.coe_mul]; norm_num

end Cert.LibF32Literals

end
-- ==== Proof.LibSageNormHost.lean ====
/-
  The reference's arrangement of a layer, read at one entry, and the law that joins it to the kernel's.

  The reference divides each neighbour sum by the row's guarded count, multiplies by the first weights, adds the bias,
  then adds the product of the features with the second weights; the normalisation and the ramp follow as in the kernel.
  The kernel multiplies each neighbour sum by the reciprocal of the guarded count, adds the two products and then the bias.
  On the extended reals x · (1 / max(a, 1)) is x / max(a, 1) for every x and a, and (A + B) + b = (A + b) + B because
  addition is commutative and associative there: the two arrangements give one value at every entry, whatever the inputs.
-/
import proofs.«179291_j9483287789910_1_alg».proof.Proof.LibSageNormSpec
import proofs.«179291_j9483287789910_1_alg».proof.Proof.LibColRow
import proofs.«179291_j9483287789910_1_alg».proof.Proof.LibRecipMean
import proofs.«179291_j9483287789910_1_alg».proof.Proof.LibF32Literals
import Idealize.ShloMosaic.Lib.StackMember
import Idealize.ShloMosaic.Lib.ValueLayout
import Idealize.ShloMosaic.Lib.Pipeline.Value

noncomputable section

namespace Cert.SageNorm

open Idealize.ShloMosaic Idealize.ShloMosaic.ValueIdx

/-- A vector spread over the rows of an `[n, e]` array (first to a `[1, e]` row, then down the rows) reads, at `(p, q)`,
    the vector at `q`. -/
theorem spread_apply {n e : ℕ} (v : FVec Ideal ⟨1, ![e]⟩ .f32)
    (b3 : (⟨1, ![e]⟩ : Shape).BroadcastsInDim ⟨2, ![1, e]⟩ (![1] : Fin 1 → Fin 2))
    (b4 : (⟨2, ![1, e]⟩ : Shape).BroadcastsInDim ⟨2, ![n, e]⟩ (![0, 1] : Fin 2 → Fin 2)) (p : Fin n) (q : Fin e) :
    broadcastInDim ⟨2, ![n, e]⟩ (![0, 1] : Fin 2 → Fin 2) b4 (broadcastInDim ⟨2, ![1, e]⟩ (![1] : Fin 1 → Fin 2) b3 v) (ix2 p q)
      = v (ix1 q) := by
  rw [Cert.LibColRow.bcast_1b_ab_apply, Cert.LibColRow.bcast_b_1b_apply]

/-- A scalar spread over a whole array reads the scalar everywhere. -/
theorem scalar_spread_apply {s : Shape} (x : FVec Ideal ⟨0, ![]⟩ .f32) (dims : Fin 0 → Fin s.rank)
    (b0 : (⟨0, ![]⟩ : Shape).BroadcastsInDim s dims) (i : s.Idx) :
    broadcastInDim s dims b0 x i = x ix0 :=
  broadcastInDim_apply dims b0 x i ix0 fun a => a.elim0

/-- The host's quotient of two arrays reads, at an index, the quotient of the entries. -/
theorem hostDivf_apply {s : Shape} {φ : FTy} (a b : FVec Ideal s φ) (i : s.Idx) :
    Host.divf (F := Ideal) a b i = Ideal.div (a i) (b i) := rfl

/-- The reference's operation tree at `(p, q)`: the quotient of each neighbour sum by the row's guarded count inside the
    first product, the bias added before the second product. -/
theorem host_tree_apply {n d e : ℕ}
    (agg h : FVec Ideal ⟨2, ![n, d]⟩ .f32) (cm : FVec Ideal ⟨1, ![n]⟩ .f32)
    (wl wr : FVec Ideal ⟨2, ![d, e]⟩ .f32) (bl sc be rm : FVec Ideal ⟨1, ![e]⟩ .f32)
    (D : DotDims ⟨2, ![n, d]⟩ ⟨2, ![d, e]⟩ ⟨2, ![n, e]⟩) (hD : D = DotDims.plain n d e)
    (b1 : (⟨1, ![n]⟩ : Shape).BroadcastsInDim ⟨2, ![n, 1]⟩ (![0] : Fin 1 → Fin 2))
    (b2 : (⟨2, ![n, 1]⟩ : Shape).BroadcastsInDim ⟨2, ![n, d]⟩ (![0, 1] : Fin 2 → Fin 2))
    (b3 : (⟨1, ![e]⟩ : Shape).BroadcastsInDim ⟨2, ![1, e]⟩ (![1] : Fin 1 → Fin 2))
    (b4 : (⟨2, ![1, e]⟩ : Shape).BroadcastsInDim ⟨2, ![n, e]⟩ (![0, 1] : Fin 2 → Fin 2))
    (dims0 : Fin 0 → Fin 2) (b0 : (⟨0, ![]⟩ : Shape).BroadcastsInDim ⟨2, ![n, e]⟩ dims0) (zb : BitVec 32)
    (p : Fin n) (q : Fin e) :
    maximumf (addf (mulf (subf (addf (addf
        (Host.dotGeneral (F := Ideal) D none
          (Host.divf (F := Ideal) agg (broadcastInDim ⟨2, ![n, d]⟩ (![0, 1] : Fin 2 → Fin 2) b2
            (broadcastInDim ⟨2, ![n, 1]⟩ (![0] : Fin 1 → Fin 2) b1 cm))) wl)
        (broadcastInDim ⟨2, ![n, e]⟩ (![0, 1] : Fin 2 → Fin 2) b4 (broadcastInDim ⟨2, ![1, e]⟩ (![1] : Fin 1 → Fin 2) b3 bl)))
        (Host.dotGeneral (F := Ideal) D none h wr))
        (broadcastInDim ⟨2, ![n, e]⟩ (![0, 1] : Fin 2 → Fin 2) b4 (broadcastInDim ⟨2, ![1, e]⟩ (![1] : Fin 1 → Fin 2) b3 rm)))
        (broadcastInDim ⟨2, ![n, e]⟩ (![0, 1] : Fin 2 → Fin 2) b4 (broadcastInDim ⟨2, ![1, e]⟩ (![1] : Fin 1 → Fin 2) b3 sc)))
        (broadcastInDim ⟨2, ![n, e]⟩ (![0, 1] : Fin 2 → Fin 2) b4 (broadcastInDim ⟨2, ![1, e]⟩ (![1] : Fin 1 → Fin 2) b3 be)))
      (broadcastInDim ⟨2, ![n, e]⟩ dims0 b0 (constant (F := Ideal) ⟨0, ![]⟩ .f32 zb)) (ix2 p q)
      = max (((((∑ c : Fin d, Ideal.div (agg (ix2 p c)) (cm (ix1 p)) * wl (ix2 c q)) + bl (ix1 q))
            + ∑ c : Fin d, h (ix2 p c) * wr (ix2 c q)) - rm (ix1 q)) * sc (ix1 q) + be (ix1 q)) (Ideal.ofBits .f32 zb) := by
  subst hD
  simp only [maximumf_apply, addf_apply, mulf_apply, subf_apply, spread_apply, scalar_spread_apply, constant_apply,
    StackMember.dotGeneral_plain_apply, hostDivf_apply, Cert.LibColRow.bcast_a1_ab_apply, Cert.LibColRow.bcast_a_a1_apply]

/-- THE LAW. With the reciprocal column holding one over the guarded count and the four parameter rows holding the four
    parameter vectors, the kernel's arrangement of the entry is the reference's, for every extended-real input. -/
theorem layerAt_eq_host {n d e : ℕ}
    (agg h : FVec Ideal ⟨2, ![n, d]⟩ .f32) (cinv : FVec Ideal ⟨2, ![n, 1]⟩ .f32) (cm : FVec Ideal ⟨1, ![n]⟩ .f32)
    (wl wr : FVec Ideal ⟨2, ![d, e]⟩ .f32) (bl sc be rm : FVec Ideal ⟨2, ![1, e]⟩ .f32)
    (blv scv bev rmv : FVec Ideal ⟨1, ![e]⟩ .f32) (one z : EReal) (a : EReal) (hone : one = 1)
    (p : Fin n) (q : Fin e)
    (hc : cinv (ix2 p (0 : Fin 1)) = Ideal.div one (max a one)) (hcm : cm (ix1 p) = max a one)
    (hbl : bl (ix2 (0 : Fin 1) q) = blv (ix1 q)) (hsc : sc (ix2 (0 : Fin 1) q) = scv (ix1 q))
    (hbe : be (ix2 (0 : Fin 1) q) = bev (ix1 q)) (hrm : rm (ix2 (0 : Fin 1) q) = rmv (ix1 q)) :
    layerAt agg h cinv wl wr bl sc be rm z p q
      = max (((((∑ c : Fin d, Ideal.div (agg (ix2 p c)) (cm (ix1 p)) * wl (ix2 c q)) + blv (ix1 q))
            + ∑ c : Fin d, h (ix2 p c) * wr (ix2 c q)) - rmv (ix1 q)) * scv (ix1 q) + bev (ix1 q)) z := by
  unfold layerAt
  rw [hc, hcm, hbl, hsc, hbe, hrm]
  have hs : (∑ c : Fin d, (agg (ix2 p c) * Ideal.div one (max a one)) * wl (ix2 c q))
      = ∑ c : Fin d, Ideal.div (agg (ix2 p c)) (max a one) * wl (ix2 c q) :=
    Finset.sum_congr rfl fun c _ => by rw [Cert.LibRecipMean.mul_recip_eq_div _ a one hone]
  rw [hs, add_right_comm]

end Cert.SageNorm

end
-- ==== Proof.Bridge.lean ====
/-
  The two programs compute one function.

  The kernel's host side and the reference compute the same source and target nodes, neighbour sums, counts and scales:
  the same operations on the same operands. A layer of the kernel is the launch's function of those; a layer of the
  reference is its own arrangement of the same quantities. Entry by entry the two are equal on the extended reals: the
  reciprocal column read at a row is one over the guarded count, the parameter rows read at a column are the parameter
  vectors, x · (1 / max(a, 1)) = x / max(a, 1), and the three summands may be added in either order. Three layers and the
  last step then agree by substitution, for every input: the precondition is not used.
-/
import proofs.«179291_j9483287789910_1_alg».proof.Proof.KernelTerms
import proofs.«179291_j9483287789910_1_alg».proof.Proof.RefTerms
import proofs.«179291_j9483287789910_1_alg».proof.Proof.LibSageNormHost

set_option maxRecDepth 16384

noncomputable section

namespace Cert

open Idealize.ShloMosaic Idealize.ShloMosaic.ValueIdx Cert.SageNorm

/-! ## The shared host computations are the same terms -/

theorem src_eq (e : IVec ⟨2, ![2, 1600000]⟩ 32) : KernelIdeal.Terms.srcRaw e = ReferenceIdeal.Terms.srcRaw e := rfl
theorem dst_eq (e : IVec ⟨2, ![2, 1600000]⟩ 32) : KernelIdeal.Terms.dstRaw e = ReferenceIdeal.Terms.dstRaw e := rfl
theorem agg160_eq (h : FVec Ideal ⟨2, ![100000, 160]⟩ .f32) (s d : IVec ⟨1, ![1600000]⟩ 32) :
    KernelIdeal.Terms.agg160 h s d = ReferenceIdeal.Terms.agg160 h s d := rfl
theorem agg128_eq (h : FVec Ideal ⟨2, ![100000, 128]⟩ .f32) (s d : IVec ⟨1, ![1600000]⟩ 32) :
    KernelIdeal.Terms.agg128 h s d = ReferenceIdeal.Terms.agg128 h s d := rfl
theorem cnt_eq (d : IVec ⟨1, ![1600000]⟩ 32) : KernelIdeal.Terms.cnt d = ReferenceIdeal.Terms.cnt d := rfl
theorem scale_eq (g rv : FVec Ideal ⟨1, ![128]⟩ .f32) : KernelIdeal.Terms.scaleVec g rv = ReferenceIdeal.Terms.scaleVec g rv := rfl
theorem head_eq (h : FVec Ideal ⟨2, ![100000, 128]⟩ .f32) (lw : FVec Ideal ⟨2, ![128, 1]⟩ .f32) (lb : FVec Ideal ⟨1, ![1]⟩ .f32) :
    KernelIdeal.Terms.head h lw lb = ReferenceIdeal.Terms.head h lw lb := rfl

/-! ## The kernel's operands read at a row or a column -/

/-- The guarded count at row `p`: the maximum of the count there and the literal one. -/
theorem cntMax_apply (d : IVec ⟨1, ![1600000]⟩ 32) (p : Fin 100000) :
    ReferenceIdeal.Terms.cntMax d (ix1 p) = max (ReferenceIdeal.Terms.cnt d (ix1 p)) (Ideal.ofBits .f32 0x3F800000#32) := by
  unfold ReferenceIdeal.Terms.cntMax
  rw [maximumf_apply, scalar_spread_apply, constant_apply]

/-- The reciprocal column at row `p`: the literal one over the guarded count there. -/
theorem cinv_apply (d : IVec ⟨1, ![1600000]⟩ 32) (p : Fin 100000) :
    KernelIdeal.Terms.cinv d (ix2 p (0 : Fin 1))
      = Ideal.div (Ideal.ofBits .f32 0x3F800000#32) (max (ReferenceIdeal.Terms.cnt d (ix1 p)) (Ideal.ofBits .f32 0x3F800000#32)) := by
  unfold KernelIdeal.Terms.cinv KernelIdeal.Terms.cntMax
  rw [Cert.LibColRow.shapeCast_a_a1_apply, hostDivf_apply, maximumf_apply, scalar_spread_apply, constant_apply, cnt_eq]

/-- A parameter row at column `q` is the parameter vector there. -/
theorem row_apply (v : FVec Ideal ⟨1, ![128]⟩ .f32) (q : Fin 128) : KernelIdeal.Terms.row v (ix2 (0 : Fin 1) q) = v (ix1 q) := by
  unfold KernelIdeal.Terms.row
  rw [shapeCast_a_1a_apply]

/-! ## A layer, and the whole -/

/-- A layer from width 160: the kernel's is the reference's, entry by entry, for every input. -/
theorem layer160_eq (h : FVec Ideal ⟨2, ![100000, 160]⟩ .f32) (e : IVec ⟨2, ![2, 1600000]⟩ 32)
    (wl wr : FVec Ideal ⟨2, ![160, 128]⟩ .f32) (bl g be rm rv : FVec Ideal ⟨1, ![128]⟩ .f32) :
    KernelIdeal.Terms.layer160 h e wl wr bl g be rm rv = ReferenceIdeal.Terms.layer160 h e wl wr bl g be rm rv := by
  funext i
  obtain ⟨p, q, rfl⟩ : ∃ (p : Fin 100000) (q : Fin 128), i = ix2 p q := ⟨i 0, i 1, eq_ix2 i⟩
  unfold KernelIdeal.Terms.layer160
  rw [layer_apply, src_eq, dst_eq, agg160_eq]
  refine (layerAt_eq_host (ReferenceIdeal.Terms.agg160 h (ReferenceIdeal.Terms.srcRaw e) (ReferenceIdeal.Terms.dstRaw e)) h
    (KernelIdeal.Terms.cinv (ReferenceIdeal.Terms.dstRaw e)) (ReferenceIdeal.Terms.cntMax (ReferenceIdeal.Terms.dstRaw e)) wl wr
    (KernelIdeal.Terms.row bl) (KernelIdeal.Terms.row (KernelIdeal.Terms.scaleVec g rv)) (KernelIdeal.Terms.row be) (KernelIdeal.Terms.row rm)
    bl (ReferenceIdeal.Terms.scaleVec g rv) be rm (Ideal.ofBits .f32 0x3F800000#32) KernelIdeal.Terms.floor0
    (ReferenceIdeal.Terms.cnt (ReferenceIdeal.Terms.dstRaw e) (ix1 p)) Cert.LibF32Literals.ofBits_one p q
    (cinv_apply _ p) (cntMax_apply _ p) (row_apply bl q) ((row_apply _ q).trans (congrFun (scale_eq g rv) (ix1 q)))
    (row_apply be q) (row_apply rm q)).trans ?_
  exact (host_tree_apply (ReferenceIdeal.Terms.agg160 h (ReferenceIdeal.Terms.srcRaw e) (ReferenceIdeal.Terms.dstRaw e)) h
    (ReferenceIdeal.Terms.cntMax (ReferenceIdeal.Terms.dstRaw e)) wl wr bl (ReferenceIdeal.Terms.scaleVec g rv) be rm
    ReferenceIdeal.dot_S100000x160_S160x128_S100000x128_1_0_0_1_n_n rfl ReferenceIdeal.Gen.bcast_S100000_S100000x1_0
    ReferenceIdeal.Gen.bcast_S100000x1_S100000x160_0_1 ReferenceIdeal.Gen.bcast_S128_S1x128_1 ReferenceIdeal.Gen.bcast_S1x128_S100000x128_0_1
    ![] ReferenceIdeal.Gen.bcast_S_S100000x128 0x00000000#32 p q).symm

/-- A layer from width 128: the kernel's is the reference's, entry by entry, for every input. -/
theorem layer128_eq (h : FVec Ideal ⟨2, ![100000, 128]⟩ .f32) (e : IVec ⟨2, ![2, 1600000]⟩ 32)
    (wl wr : FVec Ideal ⟨2, ![128, 128]⟩ .f32) (bl g be rm rv : FVec Ideal ⟨1, ![128]⟩ .f32) :
    KernelIdeal.Terms.layer128 h e wl wr bl g be rm rv = ReferenceIdeal.Terms.layer128 h e wl wr bl g be rm rv := by
  funext i
  obtain ⟨p, q, rfl⟩ : ∃ (p : Fin 100000) (q : Fin 128), i = ix2 p q := ⟨i 0, i 1, eq_ix2 i⟩
  unfold KernelIdeal.Terms.layer128
  rw [layer_apply, src_eq, dst_eq, agg128_eq]
  refine (layerAt_eq_host (ReferenceIdeal.Terms.agg128 h (ReferenceIdeal.Terms.srcRaw e) (ReferenceIdeal.Terms.dstRaw e)) h
    (KernelIdeal.Terms.cinv (ReferenceIdeal.Terms.dstRaw e)) (ReferenceIdeal.Terms.cntMax (ReferenceIdeal.Terms.dstRaw e)) wl wr
    (KernelIdeal.Terms.row bl) (KernelIdeal.Terms.row (KernelIdeal.Terms.scaleVec g rv)) (KernelIdeal.Terms.row be) (KernelIdeal.Terms.row rm)
    bl (ReferenceIdeal.Terms.scaleVec g rv) be rm (Ideal.ofBits .f32 0x3F800000#32) KernelIdeal.Terms.floor0
    (ReferenceIdeal.Terms.cnt (ReferenceIdeal.Terms.dstRaw e) (ix1 p)) Cert.LibF32Literals.ofBits_one p q
    (cinv_apply _ p) (cntMax_apply _ p) (row_apply bl q) ((row_apply _ q).trans (congrFun (scale_eq g rv) (ix1 q)))
    (row_apply be q) (row_apply rm q)).trans ?_
  exact (host_tree_apply (ReferenceIdeal.Terms.agg128 h (ReferenceIdeal.Terms.srcRaw e) (ReferenceIdeal.Terms.dstRaw e)) h
    (ReferenceIdeal.Terms.cntMax (ReferenceIdeal.Terms.dstRaw e)) wl wr bl (ReferenceIdeal.Terms.scaleVec g rv) be rm
    ReferenceIdeal.dot_S100000x128_S128x128_S100000x128_1_0_0_1_n_n rfl ReferenceIdeal.Gen.bcast_S100000_S100000x1_0
    ReferenceIdeal.Gen.bcast_S100000x1_S100000x128_0_1 ReferenceIdeal.Gen.bcast_S128_S1x128_1 ReferenceIdeal.Gen.bcast_S1x128_S100000x128_0_1
    ![] ReferenceIdeal.Gen.bcast_S_S100000x128 0x00000000#32 p q).symm

/-- THE TWO RESULTS are one function of the twenty-five arguments. -/
theorem out_eq (x : FVec Ideal ⟨2, ![100000, 160]⟩ .f32) (e : IVec ⟨2, ![2, 1600000]⟩ 32)
    (wl0 wr0 : FVec Ideal ⟨2, ![160, 128]⟩ .f32) (bl0 g0 be0 rm0 rv0 : FVec Ideal ⟨1, ![128]⟩ .f32)
    (wl1 wr1 : FVec Ideal ⟨2, ![128, 128]⟩ .f32) (bl1 g1 be1 rm1 rv1 : FVec Ideal ⟨1, ![128]⟩ .f32)
    (wl2 wr2 : FVec Ideal ⟨2, ![128, 128]⟩ .f32) (bl2 g2 be2 rm2 rv2 : FVec Ideal ⟨1, ![128]⟩ .f32)
    (lw : FVec Ideal ⟨2, ![128, 1]⟩ .f32) (lb : FVec Ideal ⟨1, ![1]⟩ .f32) :
    KernelIdeal.Terms.head (KernelIdeal.Terms.layer128 (KernelIdeal.Terms.layer128 (KernelIdeal.Terms.layer160 x e wl0 wr0 bl0 g0 be0 rm0 rv0) e wl1 wr1 bl1 g1 be1 rm1 rv1) e wl2 wr2 bl2 g2 be2 rm2 rv2) lw lb
      = ReferenceIdeal.Terms.head (ReferenceIdeal.Terms.layer128 (ReferenceIdeal.Terms.layer128 (ReferenceIdeal.Terms.layer160 x e wl0 wr0 bl0 g0 be0 rm0 rv0) e wl1 wr1 bl1 g1 be1 rm1 rv1) e wl2 wr2 bl2 g2 be2 rm2 rv2) lw lb := by
  rw [layer160_eq, layer128_eq, layer128_eq, head_eq]

end Cert

end
-- ==== Proof.lean ====
/-
  A three-layer mean-aggregating graph network with a normalising affine map and a ramp after each layer, and a final
  product with a weight column: the tiled kernel against the plain reference, on the extended reals.

  Both programs gather the source rows of the node features along the edges, sum them into the target rows and count
  the edges into each node on the host, with the same operations. The kernel then runs each layer as a launch over
  twenty blocks of 5000 nodes: it multiplies the neighbour sums by the reciprocal of the guarded count, forms the two
  products, adds the bias, subtracts the mean, multiplies by the scale, adds the shift and takes the maximum with zero.
  The reference divides by the guarded count and adds the bias before the second product. At the exact values a change
  of float format is the identity, a product into a zero accumulator is the plain sum, the blocks tile the node array,
  x · (1 / max(a, 1)) = x / max(a, 1) for every extended real, and a sum of three terms may be taken in either order: each
  layer of the kernel is the reference's layer as one whole-array function (Proof/Bridge.lean), so the two results agree
  for every input. The precondition is not used by the value claim.

  The frames of the word-level and idealized kernels are the generated ones; the reference's is its generated run with
  the result dropped. The idealization rewrote nothing, so the preservation claim is trivial. The kernel's value is read
  off the fold of its segments (Proof/KernelRun.lean, Proof/KernelFold.lean, Proof/KernelLayer0–2.lean), the reference's
  off its generated run (Proof/RefTerms.lean).
-/
import proofs.«179291_j9483287789910_1_alg».proof.Defs
import proofs.«179291_j9483287789910_1_alg».proof.Proof.Gen.Kernel
import proofs.«179291_j9483287789910_1_alg».proof.Proof.Gen.Kernel.Skeleton
import proofs.«179291_j9483287789910_1_alg».proof.Proof.Gen.Kernel.Launch
import proofs.«179291_j9483287789910_1_alg».proof.Proof.Gen.Kernel.Points
import proofs.«179291_j9483287789910_1_alg».proof.Proof.Gen.Kernel.Frame
import proofs.«179291_j9483287789910_1_alg».proof.Proof.Gen.KernelIdeal
import proofs.«179291_j9483287789910_1_alg».proof.Proof.Gen.KernelIdeal.Skeleton
import proofs.«179291_j9483287789910_1_alg».proof.Proof.Gen.KernelIdeal.Launch
import proofs.«179291_j9483287789910_1_alg».proof.Proof.Gen.KernelIdeal.Points
import proofs.«179291_j9483287789910_1_alg».proof.Proof.Gen.KernelIdeal.Frame
import proofs.«179291_j9483287789910_1_alg».proof.Proof.Gen.ReferenceIdeal
import proofs.«179291_j9483287789910_1_alg».proof.Proof.Gen.Pre_finite_inputs
import proofs.«179291_j9483287789910_1_alg».proof.Proof.Gen.ReferenceIdeal.Run
import proofs.«179291_j9483287789910_1_alg».proof.Proof.KernelRun
import proofs.«179291_j9483287789910_1_alg».proof.Proof.KernelFold
import proofs.«179291_j9483287789910_1_alg».proof.Proof.RefTerms
import proofs.«179291_j9483287789910_1_alg».proof.Proof.Bridge
import Idealize.ShloMosaic.Adequacy
import Idealize.ShloMosaic.Init

set_option maxRecDepth 16384

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories that agree on the arguments, both idealized programs end with the kernel's three layers and last
    step of those arguments in the result: the kernel by its fold, the reference by its run and the equality of the two
    functions. -/
theorem algebraic : Cert.algebraic_KernelIdeal_ReferenceIdeal := by
  intro m ρ m' ρ' _ hagree
  refine ⟨fun c => Cert.KernelIdeal.Fold.out m c, ?_, ?_⟩
  · exact (θ_run Cert.KernelIdeal.defs _ _).mono
      (fun r h c => ⟨(h c).1.trans (Cert.KernelIdeal.Fold.fold_value m ρ c), (h c).2⟩)
      (Cert.KernelIdeal.Fold.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20, e21, e22, e23, e24⟩ := hagree c
    rw [Cert.ReferenceIdeal.Terms.res_eq]
    unfold Cert.ReferenceIdeal.Terms.out Cert.ReferenceIdeal.Terms.h3 Cert.ReferenceIdeal.Terms.h2 Cert.ReferenceIdeal.Terms.h1
    unfold Cert.ReferenceIdeal.Terms.a0 Cert.ReferenceIdeal.Terms.a1 Cert.ReferenceIdeal.Terms.a2 Cert.ReferenceIdeal.Terms.a3 Cert.ReferenceIdeal.Terms.a4 Cert.ReferenceIdeal.Terms.a5 Cert.ReferenceIdeal.Terms.a6 Cert.ReferenceIdeal.Terms.a7 Cert.ReferenceIdeal.Terms.a8 Cert.ReferenceIdeal.Terms.a9 Cert.ReferenceIdeal.Terms.a10 Cert.ReferenceIdeal.Terms.a11 Cert.ReferenceIdeal.Terms.a12 Cert.ReferenceIdeal.Terms.a13 Cert.ReferenceIdeal.Terms.a14 Cert.ReferenceIdeal.Terms.a15 Cert.ReferenceIdeal.Terms.a16 Cert.ReferenceIdeal.Terms.a17 Cert.ReferenceIdeal.Terms.a18 Cert.ReferenceIdeal.Terms.a19 Cert.ReferenceIdeal.Terms.a20 Cert.ReferenceIdeal.Terms.a21 Cert.ReferenceIdeal.Terms.a22 Cert.ReferenceIdeal.Terms.a23 Cert.ReferenceIdeal.Terms.a24
    rw [e0, e1, e2, e3, e4, e5, e6, e7, e8, e9, e10, e11, e12, e13, e14, e15, e16, e17, e18, e19, e20, e21, e22, e23, e24]
    exact (Cert.out_eq _ _ _ _ _ _ _ _ _ _ _ _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
